-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2 : Shape := ⟨2, ![131072, 2]⟩
abbrev S131072x256 : Shape := ⟨2, ![131072, 256]⟩
abbrev S32x8 : Shape := ⟨2, ![32, 8]⟩
abbrev S32 : Shape := ⟨1, ![32]⟩
abbrev S1024x32 : Shape := ⟨2, ![1024, 32]⟩
abbrev S1024 : Shape := ⟨1, ![1024]⟩
abbrev S1024x256 : Shape := ⟨2, ![1024, 256]⟩
abbrev S32x256 : Shape := ⟨2, ![32, 256]⟩
abbrev S_ : Shape := ⟨0, ![]⟩

class Facts : Prop where
  bcast_S_S131072x2 : S_.BroadcastsInDim S131072x2 (![] : Fin 0 → Fin S131072x2.rank)
  reducesTo_S131072x2_S_d0_1 : S131072x2.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S1024x32 : S_.BroadcastsInDim S1024x32 (![] : Fin 0 → Fin S1024x32.rank)
  reducesTo_S1024x32_S_d0_1 : S1024x32.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S32x256 : S_.BroadcastsInDim S32x256 (![] : Fin 0 → Fin S32x256.rank)
  reducesTo_S32x256_S_d0_1 : S32x256.ReducesTo [0, 1] S_

variable [Facts]

def fn_part3 {F : FTy → Type} [FloatOps F] (main_arg11 : FVec F S32 .f32) (main_v48 : IVec S_ 1) (main_v49 : FVec F S32x256 .f32) (main_v50 : FVec F S32x256 .f32) : IVec S_ 1 :=
  let main_v51 : IVec S32x256 1 := cmpf .olt main_v49 main_v50
  let main_c_19 : IVec S_ 1 := constantI S_ 1 1#1
  let main_v52 : IVec S_ 1 := (fun x v => Host.reduce IntOp.andi x v reducesTo_S32x256_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg7 : FVec F S1024 .f32) (main_arg8 : FVec F S1024x256 .f32) (main_arg9 : FVec F S1024 .f32) (main_arg10 : FVec F S32x256 .f32) (main_arg11 : FVec F S32 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x256 .f32 := Host.absf main_arg8
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S32x256 .f32 := Host.absf main_arg10
  let main_cst_18 : FVec F S_ .f32 := constant S_ .f32 0x7F800000#32
  let main_v50 : FVec F S32x256 .f32 := broadcastInDim S32x256 ![] bcast_S_S32x256 main_cst_18
  fn_part3 (F := F) main_arg11 main_v48 main_v49 main_v50

def fn_part1 {F : FTy → Type} [FloatOps F] (main_arg4 : FVec F S32x8 .f32) (main_arg5 : FVec F S32 .f32) (main_arg6 : FVec F S1024x32 .f32) (main_arg7 : FVec F S1024 .f32) (main_arg8 : FVec F S1024x256 .f32) (main_arg9 : FVec F S1024 .f32) (main_arg10 : FVec F S32x256 .f32) (main_arg11 : FVec F S32 .f32) (main_v13 : IVec S_ 1) (main_v16 : IVec S131072x256 1) : IVec S_ 1 :=
  let main_c_5 : IVec S_ 1 := constantI S_ 1 1#1
  let main_v17 : IVec S_ 1 := (fun x v => Host.reduce IntOp.andi x v reducesTo_S131072x256_S_d0_1 h_S_) main_v16 main_c_5
  let main_v18 : IVec S_ 1 := andi main_v13 main_v17
  let main_v19 : FVec F S32x8 .f32 := Host.absf main_arg4
  let main_cst_6 : FVec F S_ .f32 := constant S_ .f32 0x7F800000#32
  let main_v20 : FVec F S32x8 .f32 := broadcastInDim S32x8 ![] bcast_S_S32x8 main_cst_6
  let main_v21 : IVec S32x8 1 := cmpf .olt main_v19 main_v20
  let main_c_7 : IVec S_ 1 := constantI S_ 1 1#1
  let main_v22 : IVec S_ 1 := (fun x v => Host.reduce IntOp.andi x v reducesTo_S32x8_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S131072x2 .f32) (main_arg1 : FVec F S131072x2 .f32) (main_arg2 : FVec F S131072x256 .f32) (main_arg3 : FVec F S131072x256 .f32) (main_arg4 : FVec F S32x8 .f32) (main_arg5 : FVec F S32 .f32) (main_arg6 : FVec F S1024x32 .f32) (main_arg7 : FVec F S1024 .f32) (main_arg8 : FVec F S1024x256 .f32) (main_arg9 : FVec F S1024 .f32) (main_arg10 : FVec F S32x256 .f32) (main_arg11 : FVec F S32 .f32) : IVec S_ 1 :=
  let main_v0 : FVec F S131072x2 .f32 := Host.absf main_arg0
  let main_cst : FVec F S_ .f32 := constant S_ .f32 0x7F800000#32
  let main_v1 : FVec F S131072x2 .f32 := broadcastInDim S131072x2 ![] bcast_S_S131072x2 main_cst
  let main_v2 : IVec S131072x2 1 := cmpf .olt main_v0 main_v1
  let main_c : IVec S_ 1 := constantI S_ 1 1#1
  let main_v3 : IVec S_ 1 := (fun x v => Host.reduce IntOp.andi x v reducesTo_S131072x2_S_d0_1 h_S_) main_v2 main_c
  let main_v4 : FVec F S131072x2 .f32 := Host.absf main_arg1
  let main_cst_0 : FVec F S_ .f32 := constant S_ .f32 0x7F800000#32
  let main_v5 : FVec F S131072x2 .f32 := broadcastInDim S131072x2 ![] bcast_S_S131072x2 main_cst_0
  let main_v6 : IVec S131072x2 1 := cmpf .olt main_v4 main_v5
  let main_c_1 : IVec S_ 1 := constantI S_ 1 1#1
  let main_v7 : IVec S_ 1 := (fun x v => Host.reduce IntOp.andi x v reducesTo_S131072x2_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S131072x256 .f32 := Host.absf main_arg3
  let main_cst_4 : FVec F S_ .f32 := constant S_ .f32 0x7F800000#32
  let main_v15 : FVec F S131072x256 .f32 := broadcastInDim S131072x256 ![] bcast_S_S131072x256 main_cst_4
  let main_v16 : IVec S131072x256 1 := cmpf .olt main_v14 main_v15
  fn_part1 (F := F) main_arg4 main_arg5 main_arg6 main_arg7 main_arg8 main_arg9 main_arg10 main_arg11 main_v13 main_v16
-- ==== Kernel.lean ====
abbrev S131072x2 : Shape := ⟨2, ![131072, 2]⟩
abbrev S131072x256 : Shape := ⟨2, ![131072, 256]⟩
abbrev S32x8 : Shape := ⟨2, ![32, 8]⟩
abbrev S32 : Shape := ⟨1, ![32]⟩
abbrev S1024x32 : Shape := ⟨2, ![1024, 32]⟩
abbrev S1024 : Shape := ⟨1, ![1024]⟩
abbrev S1024x256 : Shape := ⟨2, ![1024, 256]⟩
abbrev S32x256 : Shape := ⟨2, ![32, 256]⟩
abbrev S131072x4 : Shape := ⟨2, ![131072, 4]⟩
abbrev S_ : Shape := ⟨0, ![]⟩
abbrev S4 : Shape := ⟨1, ![4]⟩
abbrev S1x4 : Shape := ⟨2, ![1, 4]⟩
abbrev S8x32 : Shape := ⟨2, ![8, 32]⟩
abbrev S32x1024 : Shape := ⟨2, ![32, 1024]⟩
abbrev S256x1024 : Shape := ⟨2, ![256, 1024]⟩
abbrev S256x32 : Shape := ⟨2, ![256, 32]⟩
abbrev S1x32 : Shape := ⟨2, ![1, 32]⟩
abbrev S1x1024 : Shape := ⟨2, ![1, 1024]⟩
abbrev S131072x32 : Shape := ⟨2, ![131072, 32]⟩
abbrev S2048x2 : Shape := ⟨2, ![2048, 2]⟩
abbrev S2048x256 : Shape := ⟨2, ![2048, 256]⟩
abbrev S2048x32 : Shape := ⟨2, ![2048, 32]⟩
abbrev S2048x4 : Shape := ⟨2, ![2048, 4]⟩
abbrev S2048x8 : Shape := ⟨2, ![2048, 8]⟩
abbrev S2048x1024 : Shape := ⟨2, ![2048, 1024]⟩

abbrev nBuf : Space → Nat
  | .hbm => 29
  | .vmem => 18
  | .smem => 0
  | _ => 0

abbrev bufTy : (tb : Table) → Fin (tcTables nBuf tb) → BufTy
  | .hbm, ⟨0, _⟩ => ⟨S131072x2, .f32⟩
  | .hbm, ⟨1, _⟩ => ⟨S131072x2, .f32⟩
  | .hbm, ⟨2, _⟩ => ⟨S131072x256, .f32⟩
  | .hbm, ⟨3, _⟩ => ⟨S131072x256, .f32⟩
  | .hbm, ⟨4, _⟩ => ⟨S32x8, .f32⟩
  | .hbm, ⟨5, _⟩ => ⟨S32, .f32⟩
  | .hbm, ⟨6, _⟩ => ⟨S1024x32, .f32⟩
  | .hbm, ⟨7, _⟩ => ⟨S1024, .f32⟩
  | .hbm, ⟨8, _⟩ => ⟨S1024x256, .f32⟩
  | .hbm, ⟨9, _⟩ => ⟨S1024, .f32⟩
  | .hbm, ⟨10, _⟩ => ⟨S32x256, .f32⟩
  | .hbm, ⟨11, _⟩ => ⟨S32, .f32⟩
  | .hbm, ⟨12, _⟩ => ⟨S131072x2, .f32⟩
  | .hbm, ⟨13, _⟩ => ⟨S131072x4, .f32⟩
  | .hbm, ⟨14, _⟩ => ⟨S_, .f32⟩
  | .hbm, ⟨15, _⟩ => ⟨S4, .f32⟩
  | .hbm, ⟨16, _⟩ => ⟨S1x4, .f32⟩
  | .hbm, ⟨17, _⟩ => ⟨S8x32, .f32⟩
  | .hbm, ⟨18, _⟩ => ⟨S32x1024, .f32⟩
  | .hbm, ⟨19, _⟩ => ⟨S32x1024, .bf16⟩
  | .hbm, ⟨20, _⟩ => ⟨S256x1024, .f32⟩
  | .hbm, ⟨21, _⟩ => ⟨S256x1024, .bf16⟩
  | .hbm, ⟨22, _⟩ => ⟨S256x32, .f32⟩
  | .hbm, ⟨23, _⟩ => ⟨S256x32, .bf16⟩
  | .hbm, ⟨24, _⟩ => ⟨S1x32, .f32⟩
  | .hbm, ⟨25, _⟩ => ⟨S1024, .f32⟩
  | .hbm, ⟨26, _⟩ => ⟨S1x1024, .f32⟩
  | .hbm, ⟨27, _⟩ => ⟨S1x32, .f32⟩
  | .hbm, ⟨28, _⟩ => ⟨S131072x32, .f32⟩
  | .local _ .vmem, ⟨0, _⟩ => ⟨S2048x2, .f32⟩
  | .local _ .vmem, ⟨1, _⟩ => ⟨S2048x2, .f32⟩
  | .local _ .vmem, ⟨2, _⟩ => ⟨S2048x2, .f32⟩
  | .local _ .vmem, ⟨3, _⟩ => ⟨S2048x2, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S1x4, .f32⟩
  | .local _ .vmem, ⟨9, _⟩ => ⟨S8x32, .f32⟩
  | .local _ .vmem, ⟨10, _⟩ => ⟨S1x32, .f32⟩
  | .local _ .vmem, ⟨11, _⟩ => ⟨S32x1024, .bf16⟩
  | .local _ .vmem, ⟨12, _⟩ => ⟨S256x1024, .bf16⟩
  | .local _ .vmem, ⟨13, _⟩ => ⟨S1x1024, .f32⟩
  | .local _ .vmem, ⟨14, _⟩ => ⟨S256x32, .bf16⟩
  | .local _ .vmem, ⟨15, _⟩ => ⟨S1x32, .f32⟩
  | .local _ .vmem, ⟨16, _⟩ => ⟨S2048x32, .f32⟩
  | .local _ .vmem, ⟨17, _⟩ => ⟨S2048x32, .f32⟩
  | _, _ => ⟨S131072x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  concatenates_S131072x2_S131072x2_S131072x4_d1 : Shape.Concatenates [S131072x2, S131072x2] S131072x4 1
  reducesTo_S131072x4_S4_d0 : S131072x4.ReducesTo [0] S4
  h_S_ : 0 < S_.numel
  bcast_S4_S1x4_1 : S4.BroadcastsInDim S1x4 (![1] : Fin 1 → Fin S1x4.rank)
  transposes_S32x8_S8x32_1_0 : S32x8.Transposes [1, 0] S8x32
  transposes_S1024x32_S32x1024_1_0 : S1024x32.Transposes [1, 0] S32x1024
  bitsLt_bf16_f32 : FTy.bits .bf16 < FTy.bits .f32
  transposes_S1024x256_S256x1024_1_0 : S1024x256.Transposes [1, 0] S256x1024
  transposes_S32x256_S256x32_1_0 : S32x256.Transposes [1, 0] S256x32
  shapeCasts_S32_S1x32 : S32.ShapeCasts S1x32
  shapeCasts_S1024_S1x1024 : S1024.ShapeCasts S1x1024
  inb_S2048x2_S2048x2_0_0 : ∀ a, (![0, 0] : Fin 2 → Nat) a + S2048x2.size a ≤ S2048x2.size a
  h_S2048x2 : 0 < S2048x2.numel
  concatenates_S2048x2_S2048x2_S2048x4_d1 : Shape.Concatenates [S2048x2, S2048x2] S2048x4 1
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2048x4 : S1x4.Broadcasts S2048x4
  concatenates_S2048x4_S2048x4_S2048x8_d1 : Shape.Concatenates [S2048x4, S2048x4] S2048x8 1
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x256_S2048x256_0_0 : ∀ a, (![0, 0] : Fin 2 → Nat) a + S2048x256.size a ≤ S2048x256.size a
  h_S2048x256 : 0 < S2048x256.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  slices_S2048x1024_o0_0_S2048x256 : S2048x1024.Slices ![0, 0] S2048x256
  slices_S2048x1024_o0_256_S2048x256 : S2048x1024.Slices ![0, 256] S2048x256
  slices_S2048x1024_o0_512_S2048x256 : S2048x1024.Slices ![0, 512] S2048x256
  slices_S2048x1024_o0_768_S2048x256 : S2048x1024.Slices ![0, 768] S2048x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S2048x32_S2048x32_0_0 : ∀ a, (![0, 0] : Fin 2 → Nat) a + S2048x32.size a ≤ S2048x32.size a
  h_S2048x32 : 0 < S2048x32.numel
  dot_S2048x8_S8x32_S2048x32_1_0_0_1_n_n_wf : DotDims.WF S2048x8 S8x32 S2048x32 [1] [0] [0] [1] [] []
  dot_S2048x32_S32x1024_S2048x1024_1_0_0_1_n_n_wf : DotDims.WF S2048x32 S32x1024 S2048x1024 [1] [0] [0] [1] [] []
  dot_S2048x256_S256x1024_S2048x1024_1_0_0_1_n_n_wf : DotDims.WF S2048x256 S256x1024 S2048x1024 [1] [0] [0] [1] [] []
  dot_S2048x256_S256x32_S2048x32_1_0_0_1_n_n_wf : DotDims.WF S2048x256 S256x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S131072x2.size a
  hwx0_0 : ∀ i : grid0.Coords, EltTy.bits .f32 = 32 ∨ (Rect.block (s := S131072x2) S2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S131072x2.size a
  hwx0_1 : ∀ i : grid0.Coords, EltTy.bits .f32 = 32 ∨ (Rect.block (s := S131072x2) S2048x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S131072x256.size a
  hwx0_2 : ∀ i : grid0.Coords, EltTy.bits .f32 = 32 ∨ (Rect.block (s := S131072x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S131072x256.size a
  hwx0_3 : ∀ i : grid0.Coords, EltTy.bits .f32 = 32 ∨ (Rect.block (s := S131072x256) S2048x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x32.size a ≤ S8x32.size a
  hwx0_5 : ∀ i : grid0.Coords, EltTy.bits .f32 = 32 ∨ (Rect.block (s := S8x32) S8x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1024.size a ≤ S32x1024.size a
  hwx0_7 : ∀ i : grid0.Coords, EltTy.bits .bf16 = 32 ∨ (Rect.block (s := S32x1024) S32x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S256x1024.size a
  hwx0_8 : ∀ i : grid0.Coords, EltTy.bits .bf16 = 32 ∨ (Rect.block (s := S256x1024) S256x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x32.size a ≤ S256x32.size a
  hwx0_10 : ∀ i : grid0.Coords, EltTy.bits .bf16 = 32 ∨ (Rect.block (s := S256x32) S256x32.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x32.size a ≤ S131072x32.size a
  hwx0_12 : ∀ i : grid0.Coords, EltTy.bits .f32 = 32 ∨ (Rect.block (s := S131072x32) S2048x32.size (cc0_transform_12 i) (hinb0_12 i)).WholeWords (EltTy.packing .f32)

variable [Facts₀]

def dot_S2048x8_S8x32_S2048x32_1_0_0_1_n_n : DotDims S2048x8 S8x32 S2048x32 where
  lhsContracting := [1]
  rhsContracting := [0]
  lhsNonContracting := [0]
  rhsNonContracting := [1]
  lhsBatch := []
  rhsBatch := []
  wf := dot_S2048x8_S8x32_S2048x32_1_0_0_1_n_n_wf
def dot_S2048x32_S32x1024_S2048x1024_1_0_0_1_n_n : DotDims S2048x32 S32x1024 S2048x1024 where
  lhsContracting := [1]
  rhsContracting := [0]
  lhsNonContracting := [0]
  rhsNonContracting := [1]
  lhsBatch := []
  rhsBatch := []
  wf := dot_S2048x32_S32x1024_S2048x1024_1_0_0_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S32x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S256x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S256x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S2048x32.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S131072x2 : Shape := ⟨2, ![131072, 2]⟩
abbrev S131072x256 : Shape := ⟨2, ![131072, 256]⟩
abbrev S32x8 : Shape := ⟨2, ![32, 8]⟩
abbrev S32 : Shape := ⟨1, ![32]⟩
abbrev S1024x32 : Shape := ⟨2, ![1024, 32]⟩
abbrev S1024 : Shape := ⟨1, ![1024]⟩
abbrev S1024x256 : Shape := ⟨2, ![1024, 256]⟩
abbrev S32x256 : Shape := ⟨2, ![32, 256]⟩
abbrev S131072x4 : Shape := ⟨2, ![131072, 4]⟩
abbrev S_ : Shape := ⟨0, ![]⟩
abbrev S4 : Shape := ⟨1, ![4]⟩
abbrev S1x4 : Shape := ⟨2, ![1, 4]⟩
abbrev S131072x8 : Shape := ⟨2, ![131072, 8]⟩
abbrev S8x32 : Shape := ⟨2, ![8, 32]⟩
abbrev S131072x32 : Shape := ⟨2, ![131072, 32]⟩
abbrev S1x32 : Shape := ⟨2, ![1, 32]⟩
abbrev S32x1024 : Shape := ⟨2, ![32, 1024]⟩
abbrev S131072x1024 : Shape := ⟨2, ![131072, 1024]⟩
abbrev S1x1024 : Shape := ⟨2, ![1, 1024]⟩
abbrev S256x1024 : Shape := ⟨2, ![256, 1024]⟩
abbrev S256x32 : Shape := ⟨2, ![256, 32]⟩

abbrev nBuf : Space → Nat
  | .hbm => 78
  | .vmem => 0
  | .smem => 0
  | _ => 0

abbrev bufTy : (tb : Table) → Fin (tcTables nBuf tb) → BufTy
  | .hbm, ⟨0, _⟩ => ⟨S131072x2, .f32⟩
  | .hbm, ⟨1, _⟩ => ⟨S131072x2, .f32⟩
  | .hbm, ⟨2, _⟩ => ⟨S131072x256, .f32⟩
  | .hbm, ⟨3, _⟩ => ⟨S131072x256, .f32⟩
  | .hbm, ⟨4, _⟩ => ⟨S32x8, .f32⟩
  | .hbm, ⟨5, _⟩ => ⟨S32, .f32⟩
  | .hbm, ⟨6, _⟩ => ⟨S1024x32, .f32⟩
  | .hbm, ⟨7, _⟩ => ⟨S1024, .f32⟩
  | .hbm, ⟨8, _⟩ => ⟨S1024x256, .f32⟩
  | .hbm, ⟨9, _⟩ => ⟨S1024, .f32⟩
  | .hbm, ⟨10, _⟩ => ⟨S32x256, .f32⟩
  | .hbm, ⟨11, _⟩ => ⟨S32, .f32⟩
  | .hbm, ⟨12, _⟩ => ⟨S131072x2, .f32⟩
  | .hbm, ⟨13, _⟩ => ⟨S131072x4, .f32⟩
  | .hbm, ⟨14, _⟩ => ⟨S_, .f32⟩
  | .hbm, ⟨15, _⟩ => ⟨S4, .f32⟩
  | .hbm, ⟨16, _⟩ => ⟨S1x4, .f32⟩
  | .hbm, ⟨17, _⟩ => ⟨S131072x4, .f32⟩
  | .hbm, ⟨18, _⟩ => ⟨S131072x4, .f32⟩
  | .hbm, ⟨19, _⟩ => ⟨S131072x8, .f32⟩
  | .hbm, ⟨20, _⟩ => ⟨S8x32, .f32⟩
  | .hbm, ⟨21, _⟩ => ⟨S131072x32, .f32⟩
  | .hbm, ⟨22, _⟩ => ⟨S1x32, .f32⟩
  | .hbm, ⟨23, _⟩ => ⟨S131072x32, .f32⟩
  | .hbm, ⟨24, _⟩ => ⟨S131072x32, .f32⟩
  | .hbm, ⟨25, _⟩ => ⟨S_, .f32⟩
  | .hbm, ⟨26, _⟩ => ⟨S131072x32, .f32⟩
  | .hbm, ⟨27, _⟩ => ⟨S131072x32, .f32⟩
  | .hbm, ⟨28, _⟩ => ⟨S32x1024, .f32⟩
  | .hbm, ⟨29, _⟩ => ⟨S131072x1024, .f32⟩
  | .hbm, ⟨30, _⟩ => ⟨S1x1024, .f32⟩
  | .hbm, ⟨31, _⟩ => ⟨S131072x1024, .f32⟩
  | .hbm, ⟨32, _⟩ => ⟨S131072x1024, .f32⟩
  | .hbm, ⟨33, _⟩ => ⟨S256x1024, .f32⟩
  | .hbm, ⟨34, _⟩ => ⟨S131072x1024, .f32⟩
  | .hbm, ⟨35, _⟩ => ⟨S131072x1024, .f32⟩
  | .hbm, ⟨36, _⟩ => ⟨S1x1024, .f32⟩
  | .hbm, ⟨37, _⟩ => ⟨S131072x1024, .f32⟩
  | .hbm, ⟨38, _⟩ => ⟨S131072x1024, .f32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S131072x256, .f32⟩
  | .hbm, ⟨43, _⟩ => ⟨S131072x256, .f32⟩
  | .hbm, ⟨44, _⟩ => ⟨S131072x256, .f32⟩
  | .hbm, ⟨45, _⟩ => ⟨S_, .f32⟩
  | .hbm, ⟨46, _⟩ => ⟨S131072x256, .f32⟩
  | .hbm, ⟨47, _⟩ => ⟨S131072x256, .f32⟩
  | .hbm, ⟨48, _⟩ => ⟨S_, .f32⟩
  | .hbm, ⟨49, _⟩ => ⟨S131072x256, .f32⟩
  | .hbm, ⟨50, _⟩ => ⟨S131072x256, .f32⟩
  | .hbm, ⟨51, _⟩ => ⟨S131072x256, .f32⟩
  | .hbm, ⟨52, _⟩ => ⟨S131072x256, .f32⟩
  | .hbm, ⟨53, _⟩ => ⟨S131072x256, .f32⟩
  | .hbm, ⟨54, _⟩ => ⟨S_, .f32⟩
  | .hbm, ⟨55, _⟩ => ⟨S131072x256, .f32⟩
  | .hbm, ⟨56, _⟩ => ⟨S131072x256, .f32⟩
  | .hbm, ⟨57, _⟩ => ⟨S_, .f32⟩
  | .hbm, ⟨58, _⟩ => ⟨S131072x256, .f32⟩
  | .hbm, ⟨59, _⟩ => ⟨S131072x256, .f32⟩
  | .hbm, ⟨60, _⟩ => ⟨S131072x256, .f32⟩
  | .hbm, ⟨61, _⟩ => ⟨S131072x256, .f32⟩
  | .hbm, ⟨62, _⟩ => ⟨S131072x256, .f32⟩
  | .hbm, ⟨63, _⟩ => ⟨S131072x256, .f32⟩
  | .hbm, ⟨64, _⟩ => ⟨S131072x256, .f32⟩
  | .hbm, ⟨65, _⟩ => ⟨S_, .f32⟩
  | .hbm, ⟨66, _⟩ => ⟨S131072x256, .f32⟩
  | .hbm, ⟨67, _⟩ => ⟨S131072x256, .f32⟩
  | .hbm, ⟨68, _⟩ => ⟨S_, .f32⟩
  | .hbm, ⟨69, _⟩ => ⟨S131072x256, .f32⟩
  | .hbm, ⟨70, _⟩ => ⟨S131072x256, .f32⟩
  | .hbm, ⟨71, _⟩ => ⟨S131072x256, .f32⟩
  | .hbm, ⟨72, _⟩ => ⟨S131072x256, .f32⟩
  | .hbm, ⟨73, _⟩ => ⟨S256x32, .f32⟩
  | .hbm, ⟨74, _⟩ => ⟨S131072x32, .f32⟩
  | .hbm, ⟨75, _⟩ => ⟨S1x32, .f32⟩
  | .hbm, ⟨76, _⟩ => ⟨S131072x32, .f32⟩
  | .hbm, ⟨77, _⟩ => ⟨S131072x32, .f32⟩
  | _, _ => ⟨S131072x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_0 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  concatenates_S131072x2_S131072x2_S131072x4_d1 : Shape.Concatenates [S131072x2, S131072x2] S131072x4 1
  reducesTo_S131072x4_S4_d0 : S131072x4.ReducesTo [0] S4
  h_S_ : 0 < S_.numel
  bcast_S4_S1x4_1 : S4.BroadcastsInDim S1x4 (![1] : Fin 1 → Fin S1x4.rank)
  bcast_S1x4_S131072x4_0_1 : S1x4.BroadcastsInDim S131072x4 (![0, 1] : Fin 2 → Fin S131072x4.rank)
  concatenates_S131072x4_S131072x4_S131072x8_d1 : Shape.Concatenates [S131072x4, S131072x4] S131072x8 1
  transposes_S32x8_S8x32_1_0 : S32x8.Transposes [1, 0] S8x32
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  transposes_S1024x32_S32x1024_1_0 : S1024x32.Transposes [1, 0] S32x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  transposes_S1024x256_S256x1024_1_0 : S1024x256.Transposes [1, 0] S256x1024
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  bcast_S_S131072x256 : S_.BroadcastsInDim S131072x256 (![] : Fin 0 → Fin S131072x256.rank)
  transposes_S32x256_S256x32_1_0 : S32x256.Transposes [1, 0] S256x32
  dot_S131072x8_S8x32_S131072x32_1_0_0_1_n_n_wf : DotDims.WF S131072x8 S8x32 S131072x32 [1] [0] [0] [1] [] []
  dot_S131072x32_S32x1024_S131072x1024_1_0_0_1_n_n_wf : DotDims.WF S131072x32 S32x1024 S131072x1024 [1] [0] [0] [1] [] []
  dot_S131072x256_S256x1024_S131072x1024_1_0_0_1_n_n_wf : DotDims.WF S131072x256 S256x1024 S131072x1024 [1] [0] [0] [1] [] []
  dot_S131072x256_S256x32_S131072x32_1_0_0_1_n_n_wf : DotDims.WF S131072x256 S256x32 S131072x32 [1] [0] [0] [1] [] []

variable [Facts₀]

def dot_S131072x8_S8x32_S131072x32_1_0_0_1_n_n : DotDims S131072x8 S8x32 S131072x32 where
  lhsContracting := [1]
  rhsContracting := [0]
  lhsNonContracting := [0]
  rhsNonContracting := [1]
  lhsBatch := []
  rhsBatch := []
  wf := dot_S131072x8_S8x32_S131072x32_1_0_0_1_n_n_wf
def dot_S131072x32_S32x1024_S131072x1024_1_0_0_1_n_n : DotDims S131072x32 S32x1024 S131072x1024 where
  lhsContracting := [1]
  rhsContracting := [0]
  lhsNonContracting := [0]
  rhsNonContracting := [1]
  lhsBatch := []
  rhsBatch := []
  wf := dot_S131072x32_S32x1024_S131072x1024_1_0_0_1_n_n_wf
def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf
def dot_S131072x256_S256x32_S131072x32_1_0_0_1_n_n : DotDims S131072x256 S256x32 S131072x32 where
  lhsContracting := [1]
  rhsContracting := [0]
  lhsNonContracting := [0]
  rhsNonContracting := [1]
  lhsBatch := []
  rhsBatch := []
  wf := dot_S131072x256_S256x32_S131072x32_1_0_0_1_n_n_wf

class Facts : Prop extends Facts₀ where

variable [Facts]
-- ==== Proof.Spec.lean ====
/-
  The specification: what one node of the pooling layer computes, as pure functions on the extended reals.

  Node r has two observations o1, o2 (two coordinates each), a hidden row h0 and a cell row c0 (256 entries each).
    state      s = (o2, o2 - o1)                                   4 entries: position, then velocity
    input      g = (s, T - s)                                      8 entries: own state, then the sum of all OTHER nodes' states
                                                                   (T is the sum of every node's state)
    embedding  x_j = max (sum_k g_k * We_{j,k} + be_j) 0           32 entries
    gates      a_j = (sum_k x_k * Wih_{j,k} + sum_k h0_k * Whh_{j,k}) + bg_j        1024 entries, bg the two gate biases added
    cell       c1_k = logistic a_{256+k} * c0_k + logistic a_k * tanh a_{512+k}     (gate order: input, forget, cell, output)
    hidden     h1_k = logistic a_{768+k} * tanh c1_k
    output     out_q = sum_k h1_k * Wp_{q,k} + bp_q                32 entries
  Every weight matrix is indexed (output feature, input feature), as the arguments store them.
-/
import Idealize.ShloMosaic.PureOps.Ideal
import Idealize.ShloMosaic.Lib.ValueIdx

noncomputable section

open scoped BigOperators

namespace Cert.TrajPool

open Idealize.ShloMosaic Idealize.ShloMosaic.ValueIdx

/-- A node's state: its position `o2`, then its velocity `o2 - o1`. -/
def states (o1 o2 : Fin 2 → EReal) (j : Fin 4) : EReal :=
  if h : j.val < 2 then o2 ⟨j.val, h⟩
  else o2 ⟨j.val - 2, by have := j.isLt; omega⟩ - o1 ⟨j.val - 2, by have := j.isLt; omega⟩

/-- The embedding's input: the node's own state, then the sum of all the other nodes' states, `T - s`. -/
def others (T s : Fin 4 → EReal) (j : Fin 8) : EReal :=
  if h : j.val < 4 then s ⟨j.val, h⟩
  else T ⟨j.val - 4, by have := j.isLt; omega⟩ - s ⟨j.val - 4, by have := j.isLt; omega⟩

/-- The embedding: an affine layer followed by the positive part. -/
def embed (We : Fin 32 → Fin 8 → EReal) (be : Fin 32 → EReal) (g : Fin 8 → EReal) (j : Fin 32) : EReal :=
  max ((∑ k : Fin 8, g k * We j k) + be j) 0

/-- The four gates' pre-activations, the two matrix products added first and the (already added) biases last. -/
def gates (Wih : Fin 1024 → Fin 32 → EReal) (Whh : Fin 1024 → Fin 256 → EReal) (bg : Fin 1024 → EReal)
    (x : Fin 32 → EReal) (h : Fin 256 → EReal) (j : Fin 1024) : EReal :=
  ((∑ k : Fin 32, x k * Wih j k) + ∑ k : Fin 256, h k * Whh j k) + bg j

/-- The same pre-activations with each bias added right after its own product: equal, addition on the extended reals
    being associative and commutative (no finiteness is needed). -/
theorem gates_biases_apart (Wih : Fin 1024 → Fin 32 → EReal) (Whh : Fin 1024 → Fin 256 → EReal) (bih bhh : Fin 1024 → EReal)
    (x : Fin 32 → EReal) (h : Fin 256 → EReal) (j : Fin 1024) :
    (((∑ k : Fin 32, x k * Wih j k) + bih j) + ∑ k : Fin 256, h k * Whh j k) + bhh j
      = gates Wih Whh (fun j => bih j + bhh j) x h j := by
  unfold gates
  rw [add_right_comm (∑ k : Fin 32, x k * Wih j k) (bih j), add_assoc]

/-- The gates' pre-activations of one node, from its rows, the weights and the total state. -/
abbrev gateRow (We : Fin 32 → Fin 8 → EReal) (be : Fin 32 → EReal) (Wih : Fin 1024 → Fin 32 → EReal)
    (Whh : Fin 1024 → Fin 256 → EReal) (bg : Fin 1024 → EReal) (T : Fin 4 → EReal)
    (o1 o2 : Fin 2 → EReal) (h0 : Fin 256 → EReal) : Fin 1024 → EReal :=
  gates Wih Whh bg (embed We be (others T (states o1 o2))) h0

/-- The new cell row. -/
def cell (a : Fin 1024 → EReal) (c0 : Fin 256 → EReal) (k : Fin 256) : EReal :=
  Ideal.logistic (a ⟨256 + k.val, by have := k.isLt; omega⟩) * c0 k
    + Ideal.logistic (a ⟨k.val, by have := k.isLt; omega⟩) * Ideal.tanh (a ⟨512 + k.val, by have := k.isLt; omega⟩)

/-- The new hidden row. -/
def hidden (a : Fin 1024 → EReal) (c1 : Fin 256 → EReal) (k : Fin 256) : EReal :=
  Ideal.logistic (a ⟨768 + k.val, by have := k.isLt; omega⟩) * Ideal.tanh (c1 k)

/-- The projection of the hidden row. -/
def pool (Wp : Fin 32 → Fin 256 → EReal) (bp : Fin 32 → EReal) (h1 : Fin 256 → EReal) (q : Fin 32) : EReal :=
  (∑ k : Fin 256, h1 k * Wp q k) + bp q

/-- One node, from its rows, the weights and the total state `T`. -/
def node (We : Fin 32 → Fin 8 → EReal) (be : Fin 32 → EReal) (Wih : Fin 1024 → Fin 32 → EReal) (Whh : Fin 1024 → Fin 256 → EReal)
    (bg : Fin 1024 → EReal) (Wp : Fin 32 → Fin 256 → EReal) (bp : Fin 32 → EReal) (T : Fin 4 → EReal)
    (o1 o2 : Fin 2 → EReal) (h0 c0 : Fin 256 → EReal) : Fin 32 → EReal :=
  pool Wp bp (hidden (gates Wih Whh bg (embed We be (others T (states o1 o2))) h0)
    (cell (gates Wih Whh bg (embed We be (others T (states o1 o2))) h0) c0))

/-- The whole result array [131072, 32] as one function of the twelve argument arrays and of the [1, 4] array `T`
    holding the total state: row r is `node` of row r of the observations, of the hidden and of the cell array. -/
def G (a0 a1 : (⟨2, ![131072, 2]⟩ : Shape).Idx → EReal) (a2 a3 : (⟨2, ![131072, 256]⟩ : Shape).Idx → EReal)
    (a4 : (⟨2, ![32, 8]⟩ : Shape).Idx → EReal) (a5 : (⟨1, ![32]⟩ : Shape).Idx → EReal)
    (a6 : (⟨2, ![1024, 32]⟩ : Shape).Idx → EReal) (a7 : (⟨1, ![1024]⟩ : Shape).Idx → EReal)
    (a8 : (⟨2, ![1024, 256]⟩ : Shape).Idx → EReal) (a9 : (⟨1, ![1024]⟩ : Shape).Idx → EReal)
    (a10 : (⟨2, ![32, 256]⟩ : Shape).Idx → EReal) (a11 : (⟨1, ![32]⟩ : Shape).Idx → EReal)
    (T : (⟨2, ![1, 4]⟩ : Shape).Idx → EReal) : (⟨2, ![131072, 32]⟩ : Shape).Idx → EReal :=
  fun i => node (fun j k => a4 (ix2 j k)) (fun j => a5 (ix1 j)) (fun j k => a6 (ix2 j k)) (fun j k => a8 (ix2 j k))
    (fun j => a7 (ix1 j) + a9 (ix1 j)) (fun j k => a10 (ix2 j k)) (fun j => a11 (ix1 j)) (fun j => T (ix2 (0 : Fin 1) j))
    (fun a => a0 (ix2 (i 0) a)) (fun a => a1 (ix2 (i 0) a)) (fun k => a2 (ix2 (i 0) k)) (fun k => a3 (ix2 (i 0) k)) (i 1)

end Cert.TrajPool

end
-- ==== Proof.LibConcatCols.lean ====
/-
  A reusable lemma: two matrices with the same number of rows laid side by side, read at an entry.

  The concatenation along axis 1 of an [M, a] array and an [M, b] array into an [M, c] array (c = a + b), at (p, j):
  the left piece at (p, j) when j is below a, the right piece at (p, j - a) otherwise. Generic in M, a, b, c and in the
  element type; the column of the piece is passed with its defining equation, so a use site picks its own spelling.
-/
import Idealize.ShloMosaic.Lib.Pipeline.Value
import Idealize.ShloMosaic.Lib.ValueIdx

noncomputable section

namespace Cert.ConcatCols

open Idealize.ShloMosaic Idealize.ShloMosaic.ValueIdx

variable {α : Type} {M a b c : ℕ}

/-- A column in the left piece: the left piece at the same row and the same column. -/
theorem left_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin a) (hk : k.val = j.val) :
    concatenate ⟨2, ![M, c]⟩ 1 [⟨⟨2, ![M, a]⟩, x₁⟩, ⟨⟨2, ![M, b]⟩, x₂⟩] h (ix2 p j) = x₁ (ix2 p k) :=
  concatenate_pair_apply_left 1 x₁ x₂ h (ix2 p j) rfl (ix2 p k)
    (fun d => match d with | ⟨0, _⟩ => rfl | ⟨1, _⟩ => hk)

/-- A column past the left piece: the right piece at the same row, the column less the left piece's width. -/
theorem right_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin b) (hk : k.val + a = j.val) :
    concatenate ⟨2, ![M, c]⟩ 1 [⟨⟨2, ![M, a]⟩, x₁⟩, ⟨⟨2, ![M, b]⟩, x₂⟩] h (ix2 p j) = x₂ (ix2 p k) :=
  concatenate_pair_apply_right 1 x₁ x₂ h (ix2 p j) rfl rfl (ix2 p k)
    (fun d hd => match d, hd with
      | ⟨0, _⟩, _ => rfl
      | ⟨1, _⟩, hd => absurd rfl hd) hk

/-- Both cases at once (`hc`: the widths add up): the entry comes from the left piece when its column is below the left
    piece's width, from the right piece otherwise. -/
theorem apply_dite (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1) (hc : c = a + b)
    (p : Fin M) (j : Fin c) :
    concatenate ⟨2, ![M, c]⟩ 1 [⟨⟨2, ![M, a]⟩, x₁⟩, ⟨⟨2, ![M, b]⟩, x₂⟩] h (ix2 p j)
      = if hj : j.val < a then x₁ (ix2 p ⟨j.val, hj⟩)
        else x₂ (ix2 p ⟨j.val - a, by have := j.isLt; omega⟩) := by
  by_cases hj : j.val < a
  · rw [dif_pos hj]
    exact left_apply x₁ x₂ h p j ⟨j.val, hj⟩ rfl
  · rw [dif_neg hj]
    exact right_apply x₁ x₂ h p j ⟨j.val - a, by have := j.isLt; omega⟩ (by show j.val - a + a = j.val; omega)

end Cert.ConcatCols

end
-- ==== Proof.Rows.lean ====
/-
  The first two steps of a node, read off arrays of any number M of rows: the state rows (position, then velocity)
  and the embedding's input rows (own state, then total less own state) are two side-by-side concatenations.
  Both programs build them the same way, the kernel on blocks of rows and the reference on the whole arrays.
-/
import proofs.«142233_j46634754900237_2_alg».proof.Proof.Spec
import proofs.«142233_j46634754900237_2_alg».proof.Proof.LibConcatCols

noncomputable section

namespace Cert.TrajPool

open Idealize.ShloMosaic Idealize.ShloMosaic.ValueIdx

variable {M : ℕ}

/-- Row p of `[o2 | o2 - o1]` is the state of the node whose observations are row p of `o1` and of `o2`. -/
theorem states_concat (v0 v1 : FVec Ideal ⟨2, ![M, 2]⟩ .f32)
    (h : Shape.Concatenates [⟨2, ![M, 2]⟩, ⟨2, ![M, 2]⟩] ⟨2, ![M, 4]⟩ 1) (p : Fin M) (j : Fin 4) :
    concatenate ⟨2, ![M, 4]⟩ 1 [⟨⟨2, ![M, 2]⟩, v1⟩, ⟨⟨2, ![M, 2]⟩, subf v1 v0⟩] h (ix2 p j)
      = states (fun a => v0 (ix2 p a)) (fun a => v1 (ix2 p a)) j := by
  rw [ConcatCols.apply_dite _ _ h rfl p j]
  rfl

/-- Row p of `[s | d]`, where row p of `s` is a state row and row p of `d` is the total less that row, is the
    embedding's input row. -/
theorem others_concat (s d : FVec Ideal ⟨2, ![M, 4]⟩ .f32)
    (h : Shape.Concatenates [⟨2, ![M, 4]⟩, ⟨2, ![M, 4]⟩] ⟨2, ![M, 8]⟩ 1) (p : Fin M)
    (T srow : Fin 4 → EReal) (hs : ∀ k, s (ix2 p k) = srow k) (hd : ∀ k, d (ix2 p k) = T k - srow k) (j : Fin 8) :
    concatenate ⟨2, ![M, 8]⟩ 1 [⟨⟨2, ![M, 4]⟩, s⟩, ⟨⟨2, ![M, 4]⟩, d⟩] h (ix2 p j) = others T srow j := by
  rw [ConcatCols.apply_dite _ _ h rfl p j]
  unfold others
  by_cases hj : j.val < 4
  · rw [dif_pos hj, dif_pos hj, hs]
  · rw [dif_neg hj, dif_neg hj, hd]

end Cert.TrajPool

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.KernelPayload.lean ====
/-
  The kernel body's arithmetic at one entry of a block of 2048 nodes.

  The body computes, from the blocks it loads, the four gates' pre-activations (a [2048, 1024] value) and from them the
  block's result ([2048, 32]). Read at row p these are the specification's functions of row p of the loaded blocks:
  the weights arrive transposed ([in, out]), every bias as a one-row array, the total state as a one-row array.
  Each layer is stated with its input an arbitrary value whose row p is known, so the layers compose by rewriting.
-/
import proofs.«142233_j46634754900237_2_alg».proof.Proof.Gen.KernelIdeal.Skeleton
import proofs.«142233_j46634754900237_2_alg».proof.Proof.Rows
import proofs.«142233_j46634754900237_2_alg».proof.Proof.LibMatmulNN
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.TrajPool

/-- The embedding's input at (p, j): own state, then the one-row total less own state. -/
theorem input_apply (v0 v1 : FVec Ideal S2048x2 .f32) (v4 : FVec Ideal S1x4 .f32) (p : Fin 2048) (j : Fin 8) :
    concatenate S2048x8 1
      [⟨S2048x4, concatenate S2048x4 1 [⟨S2048x2, v1⟩, ⟨S2048x2, subf v1 v0⟩] concatenates_S2048x2_S2048x2_S2048x4_d1⟩,
       ⟨S2048x4, subf (broadcastTo S2048x4 (shapeCast S1x4 v4 shapeCasts_S1x4_S1x4) broadcasts_S1x4_S2048x4)
          (concatenate S2048x4 1 [⟨S2048x2, v1⟩, ⟨S2048x2, subf v1 v0⟩] concatenates_S2048x2_S2048x2_S2048x4_d1)⟩]
      concatenates_S2048x4_S2048x4_S2048x8_d1 (ix2 p j)
      = others (fun a => v4 (ix2 (0 : Fin 1) a)) (states (fun a => v0 (ix2 p a)) (fun a => v1 (ix2 p a))) j := by
  refine others_concat _ _ concatenates_S2048x4_S2048x4_S2048x8_d1 p _ _
    (fun k => states_concat v0 v1 concatenates_S2048x2_S2048x2_S2048x4_d1 p k) (fun k => ?_) j
  rw [subf_apply, broadcastTo_1b_ab_apply, shapeCast_self,
    states_concat v0 v1 concatenates_S2048x2_S2048x2_S2048x4_d1 p k]

/-- The embedding layer at (p, j), its input any [2048, 8] value whose row p is `grow`: the product with the
    transposed weights into zeros, the bias row repeated down the rows, the positive part. -/
theorem embed_apply (g : FVec Ideal S2048x8 .f32) (v9 : FVec Ideal S8x32 .f32) (v12 : FVec Ideal S1x32 .f32)
    (p : Fin 2048) (grow : Fin 8 → EReal) (hg : ∀ k, g (ix2 p k) = grow k) (j : Fin 32) :
    maximumf (addf (FloatOps.matmul dot_S2048x8_S8x32_S2048x32_1_0_0_1_n_n (some .fp32) g (shapeCast S8x32 v9 shapeCasts_S8x32_S8x32)
          (constant (F := Ideal) S2048x32 .f32 0x00000000#32))
        (broadcastTo S2048x32 (shapeCast S1x32 v12 shapeCasts_S1x32_S1x32) broadcasts_S1x32_S2048x32))
      (broadcast S2048x32 (Scalar.ofBits (F := Ideal) .f32 0x00000000#32)) (ix2 p j)
      = embed (fun j k => v9 (ix2 k j)) (fun j => v12 (ix2 (0 : Fin 1) j)) grow j := by
  rw [maximumf_apply, addf_apply, broadcastTo_1b_ab_apply, shapeCast_self v12, shapeCast_self v9, broadcast_apply]
  rw [MatmulNN.matmul_zero_apply dot_S2048x8_S8x32_S2048x32_1_0_0_1_n_n rfl]
  unfold embed
  simp only [hg]
  rw [show Scalar.ofBits (F := Ideal) .f32 0x00000000#32 = (0 : EReal) from Ideal.ofBits_zero_f32]

/-- The gates' pre-activations at (p, j): the two products (operands narrowed to bf16, the identity on the extended
    reals) into zeros, added, then the one-row bias. -/
theorem gates_apply (v0 v1 : FVec Ideal S2048x2 .f32) (v4 : FVec Ideal S1x4 .f32) (v9 : FVec Ideal S8x32 .f32)
    (v12 : FVec Ideal S1x32 .f32) (v18 : FVec Ideal S2048x256 .f32) (v21 : FVec Ideal S32x1024 .bf16)
    (v25 : FVec Ideal S256x1024 .bf16) (v29 : FVec Ideal S1x1024 .f32) (p : Fin 2048) (j : Fin 1024) :
    k0_pay2 (F := Ideal) v0 v1 v4 v9 v12 v18 v21 v25 v29 (ix2 p j)
      = gateRow (fun j k => v9 (ix2 k j)) (fun j => v12 (ix2 (0 : Fin 1) j)) (fun j k => v21 (ix2 k j))
          (fun j k => v25 (ix2 k j)) (fun j => v29 (ix2 (0 : Fin 1) j)) (fun a => v4 (ix2 (0 : Fin 1) a))
          (fun a => v0 (ix2 p a)) (fun a => v1 (ix2 p a)) (fun k => v18 (ix2 p k)) j := by
  unfold k0_pay2
  rw [addf_apply, addf_apply, broadcastTo_1b_ab_apply, shapeCast_self v29]
  simp only [matmul]
  rw [MatmulNN.matmul_zero_apply dot_S2048x32_S32x1024_S2048x1024_1_0_0_1_n_n rfl,
    MatmulNN.matmul_zero_apply dot_S2048x256_S256x1024_S2048x1024_1_0_0_1_n_n rfl]
  simp only [truncf_apply]
  simp only [embed_apply _ v9 v12 p _ (input_apply v0 v1 v4 p)]
  simp only [shapeCast_self]
  rfl

/-- A pointwise logistic at an index. -/
theorem logistic_apply {s : Shape} {φ : FTy} (a : FVec Ideal s φ) (i : s.Idx) : logistic a i = Ideal.logistic (a i) := rfl
/-- A pointwise hyperbolic tangent at an index. -/
theorem tanh_apply {s : Shape} {φ : FTy} (a : FVec Ideal s φ) (i : s.Idx) : tanh a i = Ideal.tanh (a i) := rfl

/-- The result at (p, q), from any gate value `a` whose row p is `arow` and its first two 256-column bands
    `a33`, `a34` (the input and forget gates): the cell row, the hidden row, its projection and the bias row. -/
theorem out_apply (v19 : FVec Ideal S2048x256 .f32) (a : FVec Ideal S2048x1024 .f32) (a33 a34 : FVec Ideal S2048x256 .f32)
    (v47 : FVec Ideal S256x32 .bf16) (v50 : FVec Ideal S1x32 .f32) (p : Fin 2048) (arow : Fin 1024 → EReal)
    (ha : ∀ j, a (ix2 p j) = arow j)
    (h33 : ∀ k : Fin 256, a33 (ix2 p k) = arow ⟨k.val, by have := k.isLt; omega⟩)
    (h34 : ∀ k : Fin 256, a34 (ix2 p k) = arow ⟨256 + k.val, by have := k.isLt; omega⟩) (q : Fin 32) :
    k0_pay1 (F := Ideal) v19 a a33 a34 v47 v50 (ix2 p q)
      = TrajPool.pool (fun q k => v47 (ix2 k q)) (fun q => v50 (ix2 (0 : Fin 1) q))
          (hidden arow (cell arow (fun k => v19 (ix2 p k)))) q := by
  unfold k0_pay1
  rw [addf_apply, broadcastTo_1b_ab_apply, shapeCast_self v50]
  simp only [matmul]
  rw [MatmulNN.matmul_zero_apply dot_S2048x256_S256x32_S2048x32_1_0_0_1_n_n rfl]
  unfold TrajPool.pool
  refine congrArg (· + v50 (ix2 (0 : Fin 1) q)) (Finset.sum_congr rfl fun k _ => ?_)
  rw [truncf_apply, shapeCast_self v47, mulf_apply, logistic_apply, tanh_apply, addf_apply, mulf_apply, mulf_apply,
    logistic_apply, logistic_apply, tanh_apply,
    slice2_axis1_apply 768 a slices_S2048x1024_o0_768_S2048x256 p k ⟨768 + k.val, by have := k.isLt; omega⟩ rfl,
    slice2_axis1_apply 512 a slices_S2048x1024_o0_512_S2048x256 p k ⟨512 + k.val, by have := k.isLt; omega⟩ rfl,
    ha, ha, h33, h34]
  rfl

/-- The input gates' band of the pre-activations. -/
theorem band0_apply (v0 v1 : FVec Ideal S2048x2 .f32) (v4 : FVec Ideal S1x4 .f32) (v9 : FVec Ideal S8x32 .f32)
    (v12 : FVec Ideal S1x32 .f32) (v18 : FVec Ideal S2048x256 .f32) (v21 : FVec Ideal S32x1024 .bf16)
    (v25 : FVec Ideal S256x1024 .bf16) (v29 : FVec Ideal S1x1024 .f32) (p : Fin 2048) (k : Fin 256) :
    k0_pay3 (F := Ideal) v0 v1 v4 v9 v12 v18 v21 v25 v29 (ix2 p k)
      = k0_pay2 (F := Ideal) v0 v1 v4 v9 v12 v18 v21 v25 v29 (ix2 p ⟨k.val, by have := k.isLt; omega⟩) := by
  unfold k0_pay3
  exact slice2_axis1_apply 0 _ slices_S2048x1024_o0_0_S2048x256 p k ⟨k.val, by have := k.isLt; omega⟩ (Nat.zero_add _).symm

/-- The forget gates' band of the pre-activations. -/
theorem band1_apply (v0 v1 : FVec Ideal S2048x2 .f32) (v4 : FVec Ideal S1x4 .f32) (v9 : FVec Ideal S8x32 .f32)
    (v12 : FVec Ideal S1x32 .f32) (v18 : FVec Ideal S2048x256 .f32) (v21 : FVec Ideal S32x1024 .bf16)
    (v25 : FVec Ideal S256x1024 .bf16) (v29 : FVec Ideal S1x1024 .f32) (p : Fin 2048) (k : Fin 256) :
    k0_pay4 (F := Ideal) v0 v1 v4 v9 v12 v18 v21 v25 v29 (ix2 p k)
      = k0_pay2 (F := Ideal) v0 v1 v4 v9 v12 v18 v21 v25 v29 (ix2 p ⟨256 + k.val, by have := k.isLt; omega⟩) := by
  unfold k0_pay4
  exact slice2_axis1_apply 256 _ slices_S2048x1024_o0_256_S2048x256 p k ⟨256 + k.val, by have := k.isLt; omega⟩ rfl

/-- THE BODY'S RESULT at (p, q), from the twelve loaded blocks: the specification's node of row p of the four
    row-blocked inputs, with the weights read transposed and the biases and the total state read off their one row. -/
theorem payload_apply (x0 x1 : FVec Ideal S2048x2 .f32) (x2 x3 : FVec Ideal S2048x256 .f32) (x4 : FVec Ideal S1x4 .f32)
    (x5 : FVec Ideal S8x32 .f32) (x6 : FVec Ideal S1x32 .f32) (x7 : FVec Ideal S32x1024 .bf16) (x8 : FVec Ideal S256x1024 .bf16)
    (x9 : FVec Ideal S1x1024 .f32) (x10 : FVec Ideal S256x32 .bf16) (x11 : FVec Ideal S1x32 .f32) (p : Fin 2048) (q : Fin 32) :
    k0_pay1 (F := Ideal) x3 (k0_pay2 x0 x1 x4 x5 x6 x2 x7 x8 x9) (k0_pay3 x0 x1 x4 x5 x6 x2 x7 x8 x9)
        (k0_pay4 x0 x1 x4 x5 x6 x2 x7 x8 x9) x10 x11 (ix2 p q)
      = node (fun j k => x5 (ix2 k j)) (fun j => x6 (ix2 (0 : Fin 1) j)) (fun j k => x7 (ix2 k j)) (fun j k => x8 (ix2 k j))
          (fun j => x9 (ix2 (0 : Fin 1) j)) (fun q k => x10 (ix2 k q)) (fun q => x11 (ix2 (0 : Fin 1) q))
          (fun a => x4 (ix2 (0 : Fin 1) a)) (fun a => x0 (ix2 p a)) (fun a => x1 (ix2 p a)) (fun k => x2 (ix2 p k))
          (fun k => x3 (ix2 p k)) q :=
  out_apply x3 _ _ _ x10 x11 p _ (gates_apply x0 x1 x4 x5 x6 x2 x7 x8 x9 p)
    (fun k => (band0_apply x0 x1 x4 x5 x6 x2 x7 x8 x9 p k).trans (gates_apply x0 x1 x4 x5 x6 x2 x7 x8 x9 p _))
    (fun k => (band1_apply x0 x1 x4 x5 x6 x2 x7 x8 x9 p k).trans (gates_apply x0 x1 x4 x5 x6 x2 x7 x8 x9 p _)) q

end Cert.KernelIdeal.Payload

end
-- ==== Proof.KernelBlocks.lean ====
/-
  The twelve input blocks of a grid point, read at an entry.

  The launch runs the body at 64 grid points; point t reads rows 2048 t … 2048 t + 2047 of the two observation arrays,
  of the hidden and of the cell array, and the whole of the other eight operands: the one-row total state, the
  transposed embedding weights, the three transposed and narrowed weight matrices and the three one-row biases, all
  written by host operations before the launch. Each block entry is an entry of an argument array.
-/
import proofs.«142233_j46634754900237_2_alg».proof.Proof.Gen.KernelIdeal.Value
import proofs.«142233_j46634754900237_2_alg».proof.Proof.KernelPayload
import Idealize.ShloMosaic.Lib.Pipeline.Value
import Idealize.ShloMosaic.Lib.StableHlo.Run
import Idealize.ShloMosaic.Lib.ValueLayout

noncomputable section

namespace Cert.KernelIdeal.ArrayValue

open Cert.KernelIdeal Cert.KernelIdeal.Gen Cert.KernelIdeal.Value Idealize.ShloMosaic Idealize.ShloMosaic.TcCoe Idealize.SL.Sem
  Idealize.ShloMosaic.ValueIdx Cert.TrajPool
open Idealize.ShloMosaic.Pipeline (Dat)

variable (m : (ℓ : Loc nD τ sig) → Buf (Elt Ideal) ℓ) (ρ : Dev nD → PrngReg)

/-! ## The arrays the launch finds: what the host operations before it wrote -/

/-- The embedding weights, transposed. -/
theorem V_v4 (c : Dev nD) : (V m c main_v4 : S8x32.Idx → EReal)
    = transpose S8x32 [1, 0] ((m ((c : Thread nD τ).loc main_arg4)) : FVec Ideal S32x8 .f32) transposes_S32x8_S8x32_1_0 := by
  dsimp only [Gen.V, Gen.hostOps0]; after_results

/-- The input-to-gate weights, transposed and narrowed. -/
theorem V_v6 (c : Dev nD) : (V m c main_v6 : S32x1024.Idx → EReal)
    = (truncf .bf16 (transpose S32x1024 [1, 0] ((m ((c : Thread nD τ).loc main_arg6)) : FVec Ideal S1024x32 .f32) transposes_S1024x32_S32x1024_1_0) bitsLt_bf16_f32
        : FVec Ideal S32x1024 .bf16) := by
  dsimp only [Gen.V, Gen.hostOps0]; after_results

/-- The hidden-to-gate weights, transposed and narrowed. -/
theorem V_v8 (c : Dev nD) : (V m c main_v8 : S256x1024.Idx → EReal)
    = (truncf .bf16 (transpose S256x1024 [1, 0] ((m ((c : Thread nD τ).loc main_arg8)) : FVec Ideal S1024x256 .f32) transposes_S1024x256_S256x1024_1_0) bitsLt_bf16_f32
        : FVec Ideal S256x1024 .bf16) := by
  dsimp only [Gen.V, Gen.hostOps0]; after_results

/-- The projection weights, transposed and narrowed. -/
theorem V_v10 (c : Dev nD) : (V m c main_v10 : S256x32.Idx → EReal)
    = (truncf .bf16 (transpose S256x32 [1, 0] ((m ((c : Thread nD τ).loc main_arg10)) : FVec Ideal S32x256 .f32) transposes_S32x256_S256x32_1_0) bitsLt_bf16_f32
        : FVec Ideal S256x32 .bf16) := by
  dsimp only [Gen.V, Gen.hostOps0]; after_results

/-- The embedding bias as one row. -/
theorem V_v11 (c : Dev nD) : (V m c main_v11 : S1x32.Idx → EReal)
    = shapeCast S1x32 ((m ((c : Thread nD τ).loc main_arg5)) : FVec Ideal S32 .f32) shapeCasts_S32_S1x32 := by
  dsimp only [Gen.V, Gen.hostOps0]; after_results; rfl

/-- The two gate biases added, as one row. -/
theorem V_v13 (c : Dev nD) : (V m c main_v13 : S1x1024.Idx → EReal)
    = (shapeCast S1x1024 (addf (F := Ideal) (φ := .f32) ((m ((c : Thread nD τ).loc main_arg7)) : FVec Ideal S1024 .f32) ((m ((c : Thread nD τ).loc main_arg9)) : FVec Ideal S1024 .f32)) shapeCasts_S1024_S1x1024
        : FVec Ideal S1x1024 .f32) := by
  dsimp only [Gen.V, Gen.hostOps0]; after_results; rfl

/-- The projection bias as one row. -/
theorem V_v14 (c : Dev nD) : (V m c main_v14 : S1x32.Idx → EReal)
    = shapeCast S1x32 ((m ((c : Thread nD τ).loc main_arg11)) : FVec Ideal S32 .f32) shapeCasts_S32_S1x32 := by
  dsimp only [Gen.V, Gen.hostOps0]; after_results; rfl

/-! ## The index maps, decided over the 64 grid points -/

theorem hz : (![0, 0] : Fin 2 → Nat) = fun _ => 0 := funext fun a => by fin_cases a <;> rfl

/-- Window 0's block index at point t. -/
theorem idx0 : ∀ t : Fin cfg0.N, win0_0.index t (0 : Fin 2) = t.val ∧ win0_0.index t (1 : Fin 2) = 0 :=
  (by decide +kernel : ∀ t : Fin grid0.N, _)
/-- Window 1's block index at point t. -/
theorem idx1 : ∀ t : Fin cfg0.N, win0_1.index t (0 : Fin 2) = t.val ∧ win0_1.index t (1 : Fin 2) = 0 :=
  (by decide +kernel : ∀ t : Fin grid0.N, _)
/-- Window 2's block index at point t. -/
theorem idx2 : ∀ t : Fin cfg0.N, win0_2.index t (0 : Fin 2) = t.val ∧ win0_2.index t (1 : Fin 2) = 0 :=
  (by decide +kernel : ∀ t : Fin grid0.N, _)
/-- Window 3's block index at point t. -/
theorem idx3 : ∀ t : Fin cfg0.N, win0_3.index t (0 : Fin 2) = t.val ∧ win0_3.index t (1 : Fin 2) = 0 :=
  (by decide +kernel : ∀ t : Fin grid0.N, _)
/-- Window 4's block index at point t. -/
theorem idx4 : ∀ t : Fin cfg0.N, win0_4.index t (0 : Fin 2) = 0 ∧ win0_4.index t (1 : Fin 2) = 0 :=
  (by decide +kernel : ∀ t : Fin grid0.N, _)
/-- Window 5's block index at point t. -/
theorem idx5 : ∀ t : Fin cfg0.N, win0_5.index t (0 : Fin 2) = 0 ∧ win0_5.index t (1 : Fin 2) = 0 :=
  (by decide +kernel : ∀ t : Fin grid0.N, _)
/-- Window 6's block index at point t. -/
theorem idx6 : ∀ t : Fin cfg0.N, win0_6.index t (0 : Fin 2) = 0 ∧ win0_6.index t (1 : Fin 2) = 0 :=
  (by decide +kernel : ∀ t : Fin grid0.N, _)
/-- Window 7's block index at point t. -/
theorem idx7 : ∀ t : Fin cfg0.N, win0_7.index t (0 : Fin 2) = 0 ∧ win0_7.index t (1 : Fin 2) = 0 :=
  (by decide +kernel : ∀ t : Fin grid0.N, _)
/-- Window 8's block index at point t. -/
theorem idx8 : ∀ t : Fin cfg0.N, win0_8.index t (0 : Fin 2) = 0 ∧ win0_8.index t (1 : Fin 2) = 0 :=
  (by decide +kernel : ∀ t : Fin grid0.N, _)
/-- Window 9's block index at point t. -/
theorem idx9 : ∀ t : Fin cfg0.N, win0_9.index t (0 : Fin 2) = 0 ∧ win0_9.index t (1 : Fin 2) = 0 :=
  (by decide +kernel : ∀ t : Fin grid0.N, _)
/-- Window 10's block index at point t. -/
theorem idx10 : ∀ t : Fin cfg0.N, win0_10.index t (0 : Fin 2) = 0 ∧ win0_10.index t (1 : Fin 2) = 0 :=
  (by decide +kernel : ∀ t : Fin grid0.N, _)
/-- Window 11's block index at point t. -/
theorem idx11 : ∀ t : Fin cfg0.N, win0_11.index t (0 : Fin 2) = 0 ∧ win0_11.index t (1 : Fin 2) = 0 :=
  (by decide +kernel : ∀ t : Fin grid0.N, _)
/-- Window 12's block index at point t. -/
theorem idx12 : ∀ t : Fin cfg0.N, win0_12.index t (0 : Fin 2) = t.val ∧ win0_12.index t (1 : Fin 2) = 0 :=
  (by decide +kernel : ∀ t : Fin grid0.N, _)

/-- Row p of point t's block of a row-blocked array is row 2048 t + p of the array. -/
def row (t : Fin cfg0.N) (p : Fin 2048) : Fin 131072 :=
  ⟨t.val * 2048 + p.val, by have h : t.val < 64 := lt_of_lt_of_eq t.isLt N_0; have := p.isLt; omega⟩

/-- An entry (p, a) of point t's block of window 0 sits at (2048 t + p, a) of its array. -/
theorem emb0 (t : Fin cfg0.N) (p : Fin 2048) (a : Fin 2) :
    ((cfg0.win 0).blk t).view.emb (ix2 p a) = ix2 (row t p) a := by
  obtain ⟨e0, e1⟩ := idx0 t
  refine funext fun d => Fin.ext ?_
  match d with
  | ⟨0, _⟩ => show win0_0.index t (0 : Fin 2) * 2048 + 1 * p.val = t.val * 2048 + p.val; rw [e0]; omega
  | ⟨1, _⟩ => show win0_0.index t (1 : Fin 2) * 2 + 1 * a.val = a.val; rw [e1]; omega

/-- An entry (p, a) of point t's block of window 1 sits at (2048 t + p, a) of its array. -/
theorem emb1 (t : Fin cfg0.N) (p : Fin 2048) (a : Fin 2) :
    ((cfg0.win 1).blk t).view.emb (ix2 p a) = ix2 (row t p) a := by
  obtain ⟨e0, e1⟩ := idx1 t
  refine funext fun d => Fin.ext ?_
  match d with
  | ⟨0, _⟩ => show win0_1.index t (0 : Fin 2) * 2048 + 1 * p.val = t.val * 2048 + p.val; rw [e0]; omega
  | ⟨1, _⟩ => show win0_1.index t (1 : Fin 2) * 2 + 1 * a.val = a.val; rw [e1]; omega

/-- An entry (p, a) of point t's block of window 2 sits at (2048 t + p, a) of its array. -/
theorem emb2 (t : Fin cfg0.N) (p : Fin 2048) (a : Fin 256) :
    ((cfg0.win 2).blk t).view.emb (ix2 p a) = ix2 (row t p) a := by
  obtain ⟨e0, e1⟩ := idx2 t
  refine funext fun d => Fin.ext ?_
  match d with
  | ⟨0, _⟩ => show win0_2.index t (0 : Fin 2) * 2048 + 1 * p.val = t.val * 2048 + p.val; rw [e0]; omega
  | ⟨1, _⟩ => show win0_2.index t (1 : Fin 2) * 256 + 1 * a.val = a.val; rw [e1]; omega

/-- An entry (p, a) of point t's block of window 3 sits at (2048 t + p, a) of its array. -/
theorem emb3 (t : Fin cfg0.N) (p : Fin 2048) (a : Fin 256) :
    ((cfg0.win 3).blk t).view.emb (ix2 p a) = ix2 (row t p) a := by
  obtain ⟨e0, e1⟩ := idx3 t
  refine funext fun d => Fin.ext ?_
  match d with
  | ⟨0, _⟩ => show win0_3.index t (0 : Fin 2) * 2048 + 1 * p.val = t.val * 2048 + p.val; rw [e0]; omega
  | ⟨1, _⟩ => show win0_3.index t (1 : Fin 2) * 256 + 1 * a.val = a.val; rw [e1]; omega

/-- Window 4's block is its whole array: an entry of the block sits at the same place of the array. -/
theorem emb4 (t : Fin cfg0.N) (p : Fin 1) (a : Fin 4) :
    ((cfg0.win 4).blk t).view.emb (ix2 p a) = ix2 p a := by
  obtain ⟨e0, e1⟩ := idx4 t
  refine funext fun d => Fin.ext ?_
  match d with
  | ⟨0, _⟩ => show win0_4.index t (0 : Fin 2) * 1 + 1 * p.val = p.val; rw [e0]; omega
  | ⟨1, _⟩ => show win0_4.index t (1 : Fin 2) * 4 + 1 * a.val = a.val; rw [e1]; omega

/-- Window 5's block is its whole array: an entry of the block sits at the same place of the array. -/
theorem emb5 (t : Fin cfg0.N) (p : Fin 8) (a : Fin 32) :
    ((cfg0.win 5).blk t).view.emb (ix2 p a) = ix2 p a := by
  obtain ⟨e0, e1⟩ := idx5 t
  refine funext fun d => Fin.ext ?_
  match d with
  | ⟨0, _⟩ => show win0_5.index t (0 : Fin 2) * 8 + 1 * p.val = p.val; rw [e0]; omega
  | ⟨1, _⟩ => show win0_5.index t (1 : Fin 2) * 32 + 1 * a.val = a.val; rw [e1]; omega

/-- Window 6's block is its whole array: an entry of the block sits at the same place of the array. -/
theorem emb6 (t : Fin cfg0.N) (p : Fin 1) (a : Fin 32) :
    ((cfg0.win 6).blk t).view.emb (ix2 p a) = ix2 p a := by
  obtain ⟨e0, e1⟩ := idx6 t
  refine funext fun d => Fin.ext ?_
  match d with
  | ⟨0, _⟩ => show win0_6.index t (0 : Fin 2) * 1 + 1 * p.val = p.val; rw [e0]; omega
  | ⟨1, _⟩ => show win0_6.index t (1 : Fin 2) * 32 + 1 * a.val = a.val; rw [e1]; omega

/-- Window 7's block is its whole array: an entry of the block sits at the same place of the array. -/
theorem emb7 (t : Fin cfg0.N) (p : Fin 32) (a : Fin 1024) :
    ((cfg0.win 7).blk t).view.emb (ix2 p a) = ix2 p a := by
  obtain ⟨e0, e1⟩ := idx7 t
  refine funext fun d => Fin.ext ?_
  match d with
  | ⟨0, _⟩ => show win0_7.index t (0 : Fin 2) * 32 + 1 * p.val = p.val; rw [e0]; omega
  | ⟨1, _⟩ => show win0_7.index t (1 : Fin 2) * 1024 + 1 * a.val = a.val; rw [e1]; omega

/-- Window 8's block is its whole array: an entry of the block sits at the same place of the array. -/
theorem emb8 (t : Fin cfg0.N) (p : Fin 256) (a : Fin 1024) :
    ((cfg0.win 8).blk t).view.emb (ix2 p a) = ix2 p a := by
  obtain ⟨e0, e1⟩ := idx8 t
  refine funext fun d => Fin.ext ?_
  match d with
  | ⟨0, _⟩ => show win0_8.index t (0 : Fin 2) * 256 + 1 * p.val = p.val; rw [e0]; omega
  | ⟨1, _⟩ => show win0_8.index t (1 : Fin 2) * 1024 + 1 * a.val = a.val; rw [e1]; omega

/-- Window 9's block is its whole array: an entry of the block sits at the same place of the array. -/
theorem emb9 (t : Fin cfg0.N) (p : Fin 1) (a : Fin 1024) :
    ((cfg0.win 9).blk t).view.emb (ix2 p a) = ix2 p a := by
  obtain ⟨e0, e1⟩ := idx9 t
  refine funext fun d => Fin.ext ?_
  match d with
  | ⟨0, _⟩ => show win0_9.index t (0 : Fin 2) * 1 + 1 * p.val = p.val; rw [e0]; omega
  | ⟨1, _⟩ => show win0_9.index t (1 : Fin 2) * 1024 + 1 * a.val = a.val; rw [e1]; omega

/-- Window 10's block is its whole array: an entry of the block sits at the same place of the array. -/
theorem emb10 (t : Fin cfg0.N) (p : Fin 256) (a : Fin 32) :
    ((cfg0.win 10).blk t).view.emb (ix2 p a) = ix2 p a := by
  obtain ⟨e0, e1⟩ := idx10 t
  refine funext fun d => Fin.ext ?_
  match d with
  | ⟨0, _⟩ => show win0_10.index t (0 : Fin 2) * 256 + 1 * p.val = p.val; rw [e0]; omega
  | ⟨1, _⟩ => show win0_10.index t (1 : Fin 2) * 32 + 1 * a.val = a.val; rw [e1]; omega

/-- Window 11's block is its whole array: an entry of the block sits at the same place of the array. -/
theorem emb11 (t : Fin cfg0.N) (p : Fin 1) (a : Fin 32) :
    ((cfg0.win 11).blk t).view.emb (ix2 p a) = ix2 p a := by
  obtain ⟨e0, e1⟩ := idx11 t
  refine funext fun d => Fin.ext ?_
  match d with
  | ⟨0, _⟩ => show win0_11.index t (0 : Fin 2) * 1 + 1 * p.val = p.val; rw [e0]; omega
  | ⟨1, _⟩ => show win0_11.index t (1 : Fin 2) * 32 + 1 * a.val = a.val; rw [e1]; omega

/-- An entry (p, a) of point t's block of window 12 sits at (2048 t + p, a) of its array. -/
theorem emb12 (t : Fin cfg0.N) (p : Fin 2048) (a : Fin 32) :
    ((cfg0.win 12).blk t).view.emb (ix2 p a) = ix2 (row t p) a := by
  obtain ⟨e0, e1⟩ := idx12 t
  refine funext fun d => Fin.ext ?_
  match d with
  | ⟨0, _⟩ => show win0_12.index t (0 : Fin 2) * 2048 + 1 * p.val = t.val * 2048 + p.val; rw [e0]; omega
  | ⟨1, _⟩ => show win0_12.index t (1 : Fin 2) * 32 + 1 * a.val = a.val; rw [e1]; omega

/-! ## The twelve input blocks of point t, read at an entry -/

theorem blk0 (c : Dev nD) (t : Fin cfg0.N) (p : Fin 2048) (a : Fin 2) :
    iblk m c 0 t (ix2 p a) = ((m ((c : Thread nD τ).loc main_arg0)) : FVec Ideal S131072x2 .f32) (ix2 (row t p) a) := by
  show V m c main_arg0 (((cfg0.win 0).blk t).view.emb (ix2 p a)) = _
  rw [emb0, V_main_arg0]

theorem blk1 (c : Dev nD) (t : Fin cfg0.N) (p : Fin 2048) (a : Fin 2) :
    iblk m c 1 t (ix2 p a) = ((m ((c : Thread nD τ).loc main_arg1)) : FVec Ideal S131072x2 .f32) (ix2 (row t p) a) := by
  show V m c main_arg1 (((cfg0.win 1).blk t).view.emb (ix2 p a)) = _
  rw [emb1, V_main_arg1]

theorem blk2 (c : Dev nD) (t : Fin cfg0.N) (p : Fin 2048) (a : Fin 256) :
    iblk m c 2 t (ix2 p a) = ((m ((c : Thread nD τ).loc main_arg2)) : FVec Ideal S131072x256 .f32) (ix2 (row t p) a) := by
  show V m c main_arg2 (((cfg0.win 2).blk t).view.emb (ix2 p a)) = _
  rw [emb2, V_main_arg2]

theorem blk3 (c : Dev nD) (t : Fin cfg0.N) (p : Fin 2048) (a : Fin 256) :
    iblk m c 3 t (ix2 p a) = ((m ((c : Thread nD τ).loc main_arg3)) : FVec Ideal S131072x256 .f32) (ix2 (row t p) a) := by
  show V m c main_arg3 (((cfg0.win 3).blk t).view.emb (ix2 p a)) = _
  rw [emb3, V_main_arg3]

/-- The total state's one row, as the launch finds it. -/
theorem blk4 (c : Dev nD) (t : Fin cfg0.N) (u : Fin 1) (a : Fin 4) :
    iblk m c 4 t (ix2 u a) = (V m c main_v3 : S1x4.Idx → EReal) (ix2 u a) := by
  show V m c main_v3 (((cfg0.win 4).blk t).view.emb (ix2 u a)) = _
  rw [emb4]

/-- The embedding weights arrive transposed. -/
theorem blk5 (c : Dev nD) (t : Fin cfg0.N) (k : Fin 8) (j : Fin 32) :
    iblk m c 5 t (ix2 k j) = ((m ((c : Thread nD τ).loc main_arg4)) : FVec Ideal S32x8 .f32) (ix2 j k) := by
  show V m c main_v4 (((cfg0.win 5).blk t).view.emb (ix2 k j)) = _
  rw [emb5, V_v4]
  exact transpose_ix2_apply _ _ k j

/-- The embedding bias arrives as one row. -/
theorem blk6 (c : Dev nD) (t : Fin cfg0.N) (u : Fin 1) (j : Fin 32) :
    iblk m c 6 t (ix2 u j) = ((m ((c : Thread nD τ).loc main_arg5)) : FVec Ideal S32 .f32) (ix1 j) := by
  show V m c main_v11 (((cfg0.win 6).blk t).view.emb (ix2 u j)) = _
  rw [emb6, V_v11]
  exact shapeCast_a_1a_apply _ _ u j

/-- The input-to-gate weights arrive transposed (and narrowed: the identity on the extended reals). -/
theorem blk7 (c : Dev nD) (t : Fin cfg0.N) (k : Fin 32) (j : Fin 1024) :
    iblk m c 7 t (ix2 k j) = ((m ((c : Thread nD τ).loc main_arg6)) : FVec Ideal S1024x32 .f32) (ix2 j k) := by
  show V m c main_v6 (((cfg0.win 7).blk t).view.emb (ix2 k j)) = _
  rw [emb7, V_v6, truncf_apply]
  exact transpose_ix2_apply _ _ k j

/-- The hidden-to-gate weights arrive transposed (and narrowed). -/
theorem blk8 (c : Dev nD) (t : Fin cfg0.N) (k : Fin 256) (j : Fin 1024) :
    iblk m c 8 t (ix2 k j) = ((m ((c : Thread nD τ).loc main_arg8)) : FVec Ideal S1024x256 .f32) (ix2 j k) := by
  show V m c main_v8 (((cfg0.win 8).blk t).view.emb (ix2 k j)) = _
  rw [emb8, V_v8, truncf_apply]
  exact transpose_ix2_apply _ _ k j

/-- The two gate biases arrive added, as one row. -/
theorem blk9 (c : Dev nD) (t : Fin cfg0.N) (u : Fin 1) (j : Fin 1024) :
    iblk m c 9 t (ix2 u j) = addf (F := Ideal) (φ := .f32) ((m ((c : Thread nD τ).loc main_arg7)) : FVec Ideal S1024 .f32) ((m ((c : Thread nD τ).loc main_arg9)) : FVec Ideal S1024 .f32) (ix1 j) := by
  show V m c main_v13 (((cfg0.win 9).blk t).view.emb (ix2 u j)) = _
  rw [emb9, V_v13, shapeCast_a_1a_apply]

/-- The projection weights arrive transposed (and narrowed). -/
theorem blk10 (c : Dev nD) (t : Fin cfg0.N) (k : Fin 256) (q : Fin 32) :
    iblk m c 10 t (ix2 k q) = ((m ((c : Thread nD τ).loc main_arg10)) : FVec Ideal S32x256 .f32) (ix2 q k) := by
  show V m c main_v10 (((cfg0.win 10).blk t).view.emb (ix2 k q)) = _
  rw [emb10, V_v10, truncf_apply]
  exact transpose_ix2_apply _ _ k q

/-- The projection bias arrives as one row. -/
theorem blk11 (c : Dev nD) (t : Fin cfg0.N) (u : Fin 1) (q : Fin 32) :
    iblk m c 11 t (ix2 u q) = ((m ((c : Thread nD τ).loc main_arg11)) : FVec Ideal S32 .f32) (ix1 q) := by
  show V m c main_v14 (((cfg0.win 11).blk t).view.emb (ix2 u q)) = _
  rw [emb11, V_v14]
  exact shapeCast_a_1a_apply _ _ u q

end Cert.KernelIdeal.ArrayValue

end
-- ==== Proof.KernelValue.lean ====
/-
  The kernel's result array after the run is the specification's array.

  Row p of what grid point t writes back is the specification's node of row p of the point's input blocks, that is of
  row 2048 t + p of the arguments; the 64 blocks of 2048 rows cover the result array, so after the run the array is
  the specification's array of the arguments.
-/
import proofs.«142233_j46634754900237_2_alg».proof.Proof.KernelBlocks

noncomputable section

namespace Cert.KernelIdeal.ArrayValue

open Cert.KernelIdeal Cert.KernelIdeal.Gen Cert.KernelIdeal.Value Idealize.ShloMosaic Idealize.ShloMosaic.TcCoe Idealize.SL.Sem
  Idealize.ShloMosaic.ValueIdx Cert.TrajPool
open Idealize.ShloMosaic.Pipeline (Dat)

variable (m : (ℓ : Loc nD τ sig) → Buf (Elt Ideal) ℓ) (ρ : Dev nD → PrngReg)

/-! ## What the run leaves in the result array -/

/-- The specification's array of the arguments as launched; the total state is the one-row array the launch finds. -/
def result (c : Dev nD) : S131072x32.Idx → EReal :=
  G ((m ((c : Thread nD τ).loc main_arg0)) : FVec Ideal S131072x2 .f32)
    ((m ((c : Thread nD τ).loc main_arg1)) : FVec Ideal S131072x2 .f32)
    ((m ((c : Thread nD τ).loc main_arg2)) : FVec Ideal S131072x256 .f32)
    ((m ((c : Thread nD τ).loc main_arg3)) : FVec Ideal S131072x256 .f32)
    ((m ((c : Thread nD τ).loc main_arg4)) : FVec Ideal S32x8 .f32)
    ((m ((c : Thread nD τ).loc main_arg5)) : FVec Ideal S32 .f32)
    ((m ((c : Thread nD τ).loc main_arg6)) : FVec Ideal S1024x32 .f32)
    ((m ((c : Thread nD τ).loc main_arg7)) : FVec Ideal S1024 .f32)
    ((m ((c : Thread nD τ).loc main_arg8)) : FVec Ideal S1024x256 .f32)
    ((m ((c : Thread nD τ).loc main_arg9)) : FVec Ideal S1024 .f32)
    ((m ((c : Thread nD τ).loc main_arg10)) : FVec Ideal S32x256 .f32)
    ((m ((c : Thread nD τ).loc main_arg11)) : FVec Ideal S32 .f32)
    (V m c main_v3 : S1x4.Idx → EReal)

/-- The specification's array at the entry (r, q) is the node of row r of the arguments, at q. -/
theorem G_apply (a0 a1 : (⟨2, ![131072, 2]⟩ : Shape).Idx → EReal) (a2 a3 : (⟨2, ![131072, 256]⟩ : Shape).Idx → EReal)
    (a4 : (⟨2, ![32, 8]⟩ : Shape).Idx → EReal) (a5 : (⟨1, ![32]⟩ : Shape).Idx → EReal)
    (a6 : (⟨2, ![1024, 32]⟩ : Shape).Idx → EReal) (a7 : (⟨1, ![1024]⟩ : Shape).Idx → EReal)
    (a8 : (⟨2, ![1024, 256]⟩ : Shape).Idx → EReal) (a9 : (⟨1, ![1024]⟩ : Shape).Idx → EReal)
    (a10 : (⟨2, ![32, 256]⟩ : Shape).Idx → EReal) (a11 : (⟨1, ![32]⟩ : Shape).Idx → EReal)
    (T : (⟨2, ![1, 4]⟩ : Shape).Idx → EReal) (r : Fin 131072) (q : Fin 32) :
    G a0 a1 a2 a3 a4 a5 a6 a7 a8 a9 a10 a11 T (ix2 r q)
      = node (fun j k => a4 (ix2 j k)) (fun j => a5 (ix1 j)) (fun j k => a6 (ix2 j k)) (fun j k => a8 (ix2 j k))
          (fun j => a7 (ix1 j) + a9 (ix1 j)) (fun j k => a10 (ix2 j k)) (fun j => a11 (ix1 j)) (fun j => T (ix2 (0 : Fin 1) j))
          (fun a => a0 (ix2 r a)) (fun a => a1 (ix2 r a)) (fun k => a2 (ix2 r k)) (fun k => a3 (ix2 r k)) q := rfl

/-- WHAT POINT t WRITES BACK is block t of `result`: row p of the body's result is the node of row p of the point's
    input blocks, that is of row 2048 t + p of the arguments. -/
theorem flushed_eq (c : Dev nD) (t : Fin cfg0.N) :
    (dats m 0 c).flushed 12 t = ((cfg0.win 12).blk t).view.read (Elt Ideal) (result m c) := by
  rw [flushed12]
  unfold out0_12
  rw [View.canon_unit_zero hz]
  simp only [View.ld_unit_zero (S := S2048x2) hz, View.ld_unit_zero (S := S1x4) hz, View.ld_unit_zero (S := S8x32) hz,
    View.ld_unit_zero (S := S1x32) hz, View.ld_unit_zero (S := S2048x256) hz, View.ld_unit_zero (S := S32x1024) hz,
    View.ld_unit_zero (S := S256x1024) hz, View.ld_unit_zero (S := S1x1024) hz, View.ld_unit_zero (S := S256x32) hz]
  funext y
  obtain ⟨p, q, rfl⟩ : ∃ (p : Fin 2048) (q : Fin 32), y = ix2 p q := ⟨y 0, y 1, eq_ix2 y⟩
  refine (Payload.payload_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) p q).trans ?_
  show _ = result m c (((cfg0.win 12).blk t).view.emb (ix2 p q))
  rw [emb12]
  simp only [blk0 m c t, blk1 m c t, blk2 m c t, blk3 m c t, blk4 m c t, blk5 m c t, blk6 m c t, blk7 m c t, blk8 m c t,
    blk9 m c t, blk10 m c t, blk11 m c t]
  unfold result
  rw [G_apply]
  simp only [addf_apply]

/-- An index of the result array is in point t's block iff each coordinate is in the block's range on its axis. -/
theorem mem_blk12 (t : Fin cfg0.N) (i : S131072x32.Idx) :
    i ∈ ((cfg0.win 12).blk t).view.set ↔ ∀ a : Fin 2, win0_12.index t a * S2048x32.size a ≤ (i a).val
      ∧ (i a).val < win0_12.index t a * S2048x32.size a + S2048x32.size a := by
  show i ∈ ((View.whole main_v15).slice (win0_12.rect t)).set ↔ _
  rw [View.set_slice_whole, Rect.mem_set_unit]
  exact Iff.rfl

/-- The 64 blocks cover the result array: row r is in the block of point r / 2048. -/
theorem cover (i : S131072x32.Idx) :
    ∃ t : Fin cfg0.N, (cfg0.win 12).flush t = true ∧ i ∈ ((cfg0.win 12).blk t).view.set := by
  have hi0 : (i 0).val < 131072 := (i 0).isLt
  have hi1 : (i 1).val < 32 := (i 1).isLt
  have ht : (i 0).val / 2048 < cfg0.N := by
    show (i 0).val / 2048 < grid0.N
    rw [N_0]; omega
  obtain ⟨e0, e1⟩ := idx12 ⟨(i 0).val / 2048, ht⟩
  have e0' : win0_12.index ⟨(i 0).val / 2048, ht⟩ (0 : Fin 2) = (i 0).val / 2048 := e0
  refine ⟨⟨(i 0).val / 2048, ht⟩, flush0_12 _, ?_⟩
  rw [mem_blk12]
  intro a
  match a with
  | ⟨0, _⟩ =>
    show win0_12.index ⟨(i 0).val / 2048, ht⟩ (0 : Fin 2) * 2048 ≤ (i 0).val
      ∧ (i 0).val < win0_12.index ⟨(i 0).val / 2048, ht⟩ (0 : Fin 2) * 2048 + 2048
    rw [e0']; omega
  | ⟨1, _⟩ =>
    show win0_12.index ⟨(i 0).val / 2048, ht⟩ (1 : Fin 2) * 32 ≤ (i 1).val
      ∧ (i 1).val < win0_12.index ⟨(i 0).val / 2048, ht⟩ (1 : Fin 2) * 32 + 32
    rw [e1]; omega

/-- THE RESULT ARRAY after the run is `result`. -/
theorem final (c : Dev nD) : (dats m 0 c).arrAt 12 cfg0.N = result m c :=
  (dats m 0 c).arrAt_eq_of_cover 12 (result m c) (fun t _ => flushed_eq m c t) cover

/-- The kernel's run, read: the result array ends at `result`, the twelve arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (run_blocks m ρ)

end Cert.KernelIdeal.ArrayValue

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«142233_j46634754900237_2_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.RefValue.lean ====
/-
  The reference program's result is the specification's array.

  The reference computes on whole arrays of 131072 rows. Layer by layer, each intermediate array read at row r is the
  specification's function of row r of the arguments: the state and input rows (two concatenations), the embedding
  (a product with the transposed embedding weights, the bias, the positive part), the gates (two products, each
  followed by its own bias: equal to the biases added last, by associativity and commutativity of the sum), the
  logistic gates spelt 1 / (1 + exp (-a)) — which is what the logistic function is on the extended reals —, the
  cell and hidden rows, and the projection. The total state stays the one array the program computes it into.
-/
import proofs.«142233_j46634754900237_2_alg».proof.Proof.Gen.ReferenceIdeal.Read
import proofs.«142233_j46634754900237_2_alg».proof.Proof.Rows
import proofs.«142233_j46634754900237_2_alg».proof.Proof.LibDotNN
import proofs.«142233_j46634754900237_2_alg».proof.Proof.LibBroadcastRows
import Idealize.ShloMosaic.Lib.IdealHost
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Cert.TrajPool

section
variable (x0 x1 : (⟨S131072x2, .f32⟩ : BufTy).Contents (Elt Ideal)) (x2 x3 : (⟨S131072x256, .f32⟩ : BufTy).Contents (Elt Ideal))
  (x4 : (⟨S32x8, .f32⟩ : BufTy).Contents (Elt Ideal)) (x5 : (⟨S32, .f32⟩ : BufTy).Contents (Elt Ideal))
  (x6 : (⟨S1024x32, .f32⟩ : BufTy).Contents (Elt Ideal)) (x7 : (⟨S1024, .f32⟩ : BufTy).Contents (Elt Ideal))
  (x8 : (⟨S1024x256, .f32⟩ : BufTy).Contents (Elt Ideal)) (x9 : (⟨S1024, .f32⟩ : BufTy).Contents (Elt Ideal))
  (x10 : (⟨S32x256, .f32⟩ : BufTy).Contents (Elt Ideal)) (x11 : (⟨S32, .f32⟩ : BufTy).Contents (Elt Ideal))
  (r : Fin 131072)

/-- The total state, read off the one-row array the program holds it in. -/
abbrev tRow : Fin 4 → EReal := fun a => val_main_v3 (F := Ideal) x0 x1 (ix2 (0 : Fin 1) a)
/-- Node r's state row. -/
abbrev sRow : Fin 4 → EReal := states (fun a => x0 (ix2 r a)) (fun a => x1 (ix2 r a))
/-- Node r's embedding row. -/
abbrev eRow : Fin 32 → EReal :=
  embed (fun j k => x4 (ix2 j k)) (fun j => x5 (ix1 j)) (others (tRow x0 x1) (sRow x0 x1 r))
/-- Node r's gate pre-activations. -/
abbrev aRow : Fin 1024 → EReal :=
  gates (fun j k => x6 (ix2 j k)) (fun j k => x8 (ix2 j k)) (fun j => x7 (ix1 j) + x9 (ix1 j))
    (eRow x0 x1 x4 x5 r) (fun k => x2 (ix2 r k))
/-- Node r's new hidden row. -/
abbrev hRow : Fin 256 → EReal :=
  hidden (aRow x0 x1 x2 x4 x5 x6 x7 x8 x9 r) (cell (aRow x0 x1 x2 x4 x5 x6 x7 x8 x9 r) (fun k => x3 (ix2 r k)))

/-- The state array at (r, j). -/
theorem states_row (j : Fin 4) : val_main_v1 (F := Ideal) x0 x1 (ix2 r j) = sRow x0 x1 r j :=
  states_concat x0 x1 concatenates_S131072x2_S131072x2_S131072x4_d1 r j

/-- The embedding's input array at (r, j): the total is repeated down the rows before the subtraction. -/
theorem input_row (j : Fin 8) :
    val_main_v6 (F := Ideal) x0 x1 (ix2 r j) = others (tRow x0 x1) (sRow x0 x1 r) j := by
  refine others_concat _ _ concatenates_S131072x4_S131072x4_S131072x8_d1 r _ _
    (fun k => states_row x0 x1 r k) (fun k => ?_) j
  show val_main_v4 (F := Ideal) x0 x1 (ix2 r k) - val_main_v1 (F := Ideal) x0 x1 (ix2 r k) = _
  rw [states_row]
  unfold val_main_v4
  rw [BroadcastRows.row_apply]

/-- The embedding array at (r, j). -/
theorem embed_row (j : Fin 32) : val_main_v12 (F := Ideal) x0 x1 x4 x5 (ix2 r j) = eRow x0 x1 x4 x5 r j := by
  rw [val_main_v12_apply, val_main_v11_apply, val_main_call0_v0_apply, val_main_call0_cst_apply]
  unfold val_main_v8 val_main_v10 val_main_v9 val_main_v7
  rw [DotNN.dotGeneral_apply dot_S131072x8_S8x32_S131072x32_1_0_0_1_n_n rfl, BroadcastRows.row_apply,
    BroadcastRows.unit_apply]
  unfold eRow embed
  have ht : ∀ k : Fin 8, transpose S8x32 [1, 0] x4 transposes_S32x8_S8x32_1_0 (ix2 k j) = x4 (ix2 j k) :=
    fun k => transpose_ix2_apply x4 _ k j
  simp only [input_row, ht, Ideal.maximumf_def, Ideal.addf_def, Ideal.ofBits_def, Ideal.ofBits_zero_f32]

/-- The gates' array at (r, j): each bias is added right after its own product; the sum is the same. -/
theorem gates_row (j : Fin 1024) :
    val_main_v23 (F := Ideal) x0 x1 x2 x4 x5 x6 x7 x8 x9 (ix2 r j) = aRow x0 x1 x2 x4 x5 x6 x7 x8 x9 r j := by
  rw [val_main_v23_apply, val_main_v20_apply, val_main_v17_apply]
  unfold val_main_v14 val_main_v13 val_main_v16 val_main_v15 val_main_v19 val_main_v18 val_main_v22 val_main_v21
  rw [DotNN.dotGeneral_apply dot_S131072x32_S32x1024_S131072x1024_1_0_0_1_n_n rfl,
    DotNN.dotGeneral_apply dot_S131072x256_S256x1024_S131072x1024_1_0_0_1_n_n rfl,
    BroadcastRows.row_apply, BroadcastRows.unit_apply, BroadcastRows.row_apply, BroadcastRows.unit_apply]
  have ht6 : ∀ k : Fin 32, transpose S32x1024 [1, 0] x6 transposes_S1024x32_S32x1024_1_0 (ix2 k j) = x6 (ix2 j k) :=
    fun k => transpose_ix2_apply x6 _ k j
  have ht8 : ∀ k : Fin 256, transpose S256x1024 [1, 0] x8 transposes_S1024x256_S256x1024_1_0 (ix2 k j) = x8 (ix2 j k) :=
    fun k => transpose_ix2_apply x8 _ k j
  simp only [embed_row, ht6, ht8, Ideal.addf_def]
  exact gates_biases_apart (fun j k => x6 (ix2 j k)) (fun j k => x8 (ix2 j k)) (fun j => x7 (ix1 j)) (fun j => x9 (ix1 j))
    (eRow x0 x1 x4 x5 r) (fun k => x2 (ix2 r k)) j

/-- The new hidden array at (r, k): each gate is 1 / (1 + exp (-a)), the logistic function on the extended reals; the
    four gates are the four 256-column bands of the pre-activations. -/
theorem hidden_row (k : Fin 256) :
    val_main_v51 (F := Ideal) x0 x1 x2 x3 x4 x5 x6 x7 x8 x9 (ix2 r k) = hRow x0 x1 x2 x3 x4 x5 x6 x7 x8 x9 r k := by
  simp only [val_main_v51_apply, val_main_v50_apply, val_main_v49_apply, val_main_v47_apply, val_main_v45_apply,
    val_main_v44_apply, val_main_v43_apply, val_main_v42_apply, val_main_v41_apply, val_main_v40_apply, val_main_v38_apply,
    val_main_v36_apply, val_main_v35_apply, val_main_v34_apply, val_main_v33_apply, val_main_v31_apply, val_main_v29_apply,
    val_main_v28_apply, val_main_v30_apply, val_main_v32_apply, val_main_v37_apply, val_main_v39_apply, val_main_v46_apply,
    val_main_v48_apply, val_main_cst_0_apply, val_main_cst_1_apply, val_main_cst_2_apply, val_main_cst_3_apply,
    val_main_cst_4_apply, val_main_cst_5_apply]
  unfold val_main_v24 val_main_v25 val_main_v26 val_main_v27
  rw [slice2_axis1_apply 0 _ slices_S131072x1024_S131072x256_0_0 r k ⟨k.val, by have := k.isLt; omega⟩ (Nat.zero_add _).symm,
    slice2_axis1_apply 256 _ slices_S131072x1024_S131072x256_0_256 r k ⟨256 + k.val, by have := k.isLt; omega⟩ rfl,
    slice2_axis1_apply 512 _ slices_S131072x1024_S131072x256_0_512 r k ⟨512 + k.val, by have := k.isLt; omega⟩ rfl,
    slice2_axis1_apply 768 _ slices_S131072x1024_S131072x256_0_768 r k ⟨768 + k.val, by have := k.isLt; omega⟩ rfl]
  simp only [gates_row]
  unfold hRow TrajPool.hidden TrajPool.cell Ideal.logistic
  simp only [Ideal.hostDivf_def, Ideal.hostUnary_exp_def, Ideal.hostUnary_tanh_def, Ideal.hostNegf_def, Ideal.negf_def,
    Ideal.mulf_def, Ideal.addf_def, Ideal.ofBits_def, Ideal.ofBits_one_f32]

/-- The result array at (r, q). -/
theorem out_row (q : Fin 32) :
    val_main_v56 (F := Ideal) x0 x1 x2 x3 x4 x5 x6 x7 x8 x9 x10 x11 (ix2 r q)
      = TrajPool.pool (fun q k => x10 (ix2 q k)) (fun q => x11 (ix1 q)) (hRow x0 x1 x2 x3 x4 x5 x6 x7 x8 x9 r) q := by
  rw [val_main_v56_apply]
  unfold val_main_v53 val_main_v52 val_main_v55 val_main_v54
  rw [DotNN.dotGeneral_apply dot_S131072x256_S256x32_S131072x32_1_0_0_1_n_n rfl, BroadcastRows.row_apply,
    BroadcastRows.unit_apply]
  unfold TrajPool.pool
  have ht : ∀ k : Fin 256, transpose S256x32 [1, 0] x10 transposes_S32x256_S256x32_1_0 (ix2 k q) = x10 (ix2 q k) :=
    fun k => transpose_ix2_apply x10 _ k q
  simp only [hidden_row, ht, Ideal.addf_def]

/-- THE REFERENCE'S RESULT is the specification's array of its arguments, the total state being the one-row array
    the program itself computes. -/
theorem result_eq :
    val_main_v56 (F := Ideal) x0 x1 x2 x3 x4 x5 x6 x7 x8 x9 x10 x11
      = G x0 x1 x2 x3 x4 x5 x6 x7 x8 x9 x10 x11 (val_main_v3 (F := Ideal) x0 x1) := by
  funext i
  obtain ⟨r, q, rfl⟩ : ∃ (r : Fin 131072) (q : Fin 32), i = ix2 r q := ⟨i 0, i 1, eq_ix2 i⟩
  rw [out_row]
  rfl

end

end Cert.ReferenceIdeal.RefValue

end
-- ==== Proof.lean ====
/-
  A pooling layer over 131072 nodes: each node's state (position, velocity) and the sum of all the other nodes'
  states are embedded (an affine layer and the positive part), fed with the node's hidden row to an LSTM cell, and the
  new hidden row is projected to 32 outputs.

  The kernel computes the total state on the host, then runs 64 blocks of 2048 nodes; inside a block it uses the
  weights transposed on the host beforehand, narrows the operands of the three large products to bf16, adds the two
  gate biases before the launch, and applies the logistic function as one operation. The reference is plain jnp on
  the whole arrays: it adds each gate bias right after its own product and spells the logistic 1 / (1 + exp (-a)).

  On the extended reals a change of float format is the identity, a matrix product into zeros is the plain sum of
  products on both sides, the logistic IS 1 / (1 + exp (-a)), and the two orders of adding the biases agree because
  addition is associative and commutative (no finiteness is used). So both programs end with the same array: row r
  is the specification's `node` (Proof/Spec.lean) of row r of the arguments. The kernel's side is Proof/KernelPayload.lean
  (the body at an entry) and Proof/KernelValue.lean (the 64 blocks cover the array); the reference's side is
  Proof/RefValue.lean. The three frames are the generated runs; no idealization rule was applied to the kernel.
-/
import proofs.«142233_j46634754900237_2_alg».proof.Defs
import proofs.«142233_j46634754900237_2_alg».proof.Proof.Gen.Kernel
import proofs.«142233_j46634754900237_2_alg».proof.Proof.Gen.Kernel.Skeleton
import proofs.«142233_j46634754900237_2_alg».proof.Proof.Gen.Kernel.Launch
import proofs.«142233_j46634754900237_2_alg».proof.Proof.Gen.Kernel.Points
import proofs.«142233_j46634754900237_2_alg».proof.Proof.Gen.Kernel.Frame
import proofs.«142233_j46634754900237_2_alg».proof.Proof.Gen.KernelIdeal
import proofs.«142233_j46634754900237_2_alg».proof.Proof.Gen.KernelIdeal.Skeleton
import proofs.«142233_j46634754900237_2_alg».proof.Proof.Gen.KernelIdeal.Launch
import proofs.«142233_j46634754900237_2_alg».proof.Proof.Gen.KernelIdeal.Points
import proofs.«142233_j46634754900237_2_alg».proof.Proof.Gen.KernelIdeal.Frame
import proofs.«142233_j46634754900237_2_alg».proof.Proof.Gen.ReferenceIdeal
import proofs.«142233_j46634754900237_2_alg».proof.Proof.Gen.Pre_finite_inputs
import proofs.«142233_j46634754900237_2_alg».proof.Proof.Gen.KernelIdeal.Value
import proofs.«142233_j46634754900237_2_alg».proof.Proof.Gen.ReferenceIdeal.Run
import proofs.«142233_j46634754900237_2_alg».proof.Proof.Gen.ReferenceIdeal.Read
import proofs.«142233_j46634754900237_2_alg».proof.Proof.KernelValue
import proofs.«142233_j46634754900237_2_alg».proof.Proof.RefValue
import Idealize.ShloMosaic.Adequacy
import Idealize.ShloMosaic.Init

noncomputable section

namespace Cert.Proof

open Idealize.ShloMosaic Idealize.ShloMosaic.TcCoe Idealize.SL.Sem

/-- The one-row total state the launch finds is the array the reference computes from the same two observation
    arrays: both programs sum the same concatenation over the nodes and view the sum as one row. -/
theorem total_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v3 : Cert.KernelIdeal.S1x4.Idx → EReal)
      = Cert.ReferenceIdeal.Read.val_main_v3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  dsimp only [Cert.KernelIdeal.Gen.V, Cert.KernelIdeal.Gen.hostOps0]; after_results; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories that agree on the twelve arguments, end with the specification's array. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v56_eq, Cert.ReferenceIdeal.RefValue.result_eq,
    h0, h1, h2, h3, h4, h5, h6, h7, h8, h9, h10, h11]
  show _ = Cert.KernelIdeal.ArrayValue.result m c
  unfold Cert.KernelIdeal.ArrayValue.result
  rw [total_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
